-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32x64 : Shape := ⟨3, ![8192, 32, 64]⟩
abbrev S64x64 : Shape := ⟨2, ![64, 64]⟩
abbrev S_ : Shape := ⟨0, ![]⟩

class Facts : Prop where
  bcast_S_S8192x32x64 : S_.BroadcastsInDim S8192x32x64 (![] : Fin 0 → Fin S8192x32x64.rank)
  reducesTo_S8192x32x64_S_d0_1_2 : S8192x32x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S8192x32x64 .f32) (main_arg1 : FVec F S64x64 .f32) : IVec S_ 1 :=
  let main_v0 : FVec F S8192x32x64 .f32 := Host.absf main_arg0
  let main_cst : FVec F S_ .f32 := constant S_ .f32 0x7F800000#32
  let main_v1 : FVec F S8192x32x64 .f32 := broadcastInDim S8192x32x64 ![] bcast_S_S8192x32x64 main_cst
  let main_v2 : IVec S8192x32x64 1 := cmpf .olt main_v0 main_v1
  let main_c : IVec S_ 1 := constantI S_ 1 1#1
  let main_v3 : IVec S_ 1 := (fun x v => Host.reduce IntOp.andi x v reducesTo_S8192x32x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S8192x32x64 : Shape := ⟨3, ![8192, 32, 64]⟩
abbrev S64x64 : Shape := ⟨2, ![64, 64]⟩
abbrev S8192x496x64 : Shape := ⟨3, ![8192, 496, 64]⟩
abbrev S64x32x64 : Shape := ⟨3, ![64, 32, 64]⟩
abbrev S64x496x64 : Shape := ⟨3, ![64, 496, 64]⟩
abbrev S2048x64 : Shape := ⟨2, ![2048, 64]⟩
abbrev S64x1x64 : Shape := ⟨3, ![64, 1, 64]⟩
abbrev S64x31x64 : Shape := ⟨3, ![64, 31, 64]⟩
abbrev S64x30x64 : Shape := ⟨3, ![64, 30, 64]⟩
abbrev S64x29x64 : Shape := ⟨3, ![64, 29, 64]⟩
abbrev S64x28x64 : Shape := ⟨3, ![64, 28, 64]⟩
abbrev S64x27x64 : Shape := ⟨3, ![64, 27, 64]⟩
abbrev S64x26x64 : Shape := ⟨3, ![64, 26, 64]⟩
abbrev S64x25x64 : Shape := ⟨3, ![64, 25, 64]⟩
abbrev S64x24x64 : Shape := ⟨3, ![64, 24, 64]⟩
abbrev S64x23x64 : Shape := ⟨3, ![64, 23, 64]⟩
abbrev S64x22x64 : Shape := ⟨3, ![64, 22, 64]⟩
abbrev S64x21x64 : Shape := ⟨3, ![64, 21, 64]⟩
abbrev S64x20x64 : Shape := ⟨3, ![64, 20, 64]⟩
abbrev S64x19x64 : Shape := ⟨3, ![64, 19, 64]⟩
abbrev S64x18x64 : Shape := ⟨3, ![64, 18, 64]⟩
abbrev S64x17x64 : Shape := ⟨3, ![64, 17, 64]⟩
abbrev S64x16x64 : Shape := ⟨3, ![64, 16, 64]⟩
abbrev S64x15x64 : Shape := ⟨3, ![64, 15, 64]⟩
abbrev S64x14x64 : Shape := ⟨3, ![64, 14, 64]⟩
abbrev S64x13x64 : Shape := ⟨3, ![64, 13, 64]⟩
abbrev S64x12x64 : Shape := ⟨3, ![64, 12, 64]⟩
abbrev S64x11x64 : Shape := ⟨3, ![64, 11, 64]⟩
abbrev S64x10x64 : Shape := ⟨3, ![64, 10, 64]⟩
abbrev S64x9x64 : Shape := ⟨3, ![64, 9, 64]⟩
abbrev S64x8x64 : Shape := ⟨3, ![64, 8, 64]⟩
abbrev S64x7x64 : Shape := ⟨3, ![64, 7, 64]⟩
abbrev S64x6x64 : Shape := ⟨3, ![64, 6, 64]⟩
abbrev S64x5x64 : Shape := ⟨3, ![64, 5, 64]⟩
abbrev S64x4x64 : Shape := ⟨3, ![64, 4, 64]⟩
abbrev S64x3x64 : Shape := ⟨3, ![64, 3, 64]⟩
abbrev S64x2x64 : Shape := ⟨3, ![64, 2, 64]⟩

abbrev nBuf : Space → Nat
  | .hbm => 4
  | .vmem => 5
  | .smem => 0
  | _ => 0

abbrev bufTy : (tb : Table) → Fin (tcTables nBuf tb) → BufTy
  | .hbm, ⟨0, _⟩ => ⟨S8192x32x64, .f32⟩
  | .hbm, ⟨1, _⟩ => ⟨S64x64, .f32⟩
  | .hbm, ⟨2, _⟩ => ⟨S64x64, .bf16⟩
  | .hbm, ⟨3, _⟩ => ⟨S8192x496x64, .f32⟩
  | .local _ .vmem, ⟨0, _⟩ => ⟨S64x32x64, .f32⟩
  | .local _ .vmem, ⟨1, _⟩ => ⟨S64x32x64, .f32⟩
  | .local _ .vmem, ⟨2, _⟩ => ⟨S64x64, .bf16⟩
  | .local _ .vmem, ⟨3, _⟩ => ⟨S64x496x64, .f32⟩
  | .local _ .vmem, ⟨4, _⟩ => ⟨S64x496x64, .f32⟩
  | _, _ => ⟨S8192x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x496x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S64x32x64_S64x32x64_0_0_0 : ∀ a, (![0, 0, 0] : Fin 3 → Nat) a + S64x32x64.size a ≤ S64x32x64.size a
  h_S64x32x64 : 0 < S64x32x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x32x64_S2048x64 : S64x32x64.ShapeCasts S2048x64
  shapeCasts_S2048x64_S64x32x64 : S2048x64.ShapeCasts S64x32x64
  slices_S64x32x64_o0_0_0_S64x1x64 : S64x32x64.Slices ![0, 0, 0] S64x1x64
  slices_S64x32x64_o0_1_0_S64x31x64 : S64x32x64.Slices ![0, 1, 0] S64x31x64
  broadcasts_S64x1x64_S64x31x64 : S64x1x64.Broadcasts S64x31x64
  inb_S64x496x64_S64x31x64_0_0_0 : ∀ a, (![0, 0, 0] : Fin 3 → Nat) a + S64x31x64.size a ≤ S64x496x64.size a
  h_S64x31x64 : 0 < S64x31x64.numel
  slices_S64x32x64_o0_1_0_S64x1x64 : S64x32x64.Slices ![0, 1, 0] S64x1x64
  slices_S64x32x64_o0_2_0_S64x30x64 : S64x32x64.Slices ![0, 2, 0] S64x30x64
  broadcasts_S64x1x64_S64x30x64 : S64x1x64.Broadcasts S64x30x64
  inb_S64x496x64_S64x30x64_0_31_0 : ∀ a, (![0, 31, 0] : Fin 3 → Nat) a + S64x30x64.size a ≤ S64x496x64.size a
  h_S64x30x64 : 0 < S64x30x64.numel
  slices_S64x32x64_o0_2_0_S64x1x64 : S64x32x64.Slices ![0, 2, 0] S64x1x64
  slices_S64x32x64_o0_3_0_S64x29x64 : S64x32x64.Slices ![0, 3, 0] S64x29x64
  broadcasts_S64x1x64_S64x29x64 : S64x1x64.Broadcasts S64x29x64
  inb_S64x496x64_S64x29x64_0_61_0 : ∀ a, (![0, 61, 0] : Fin 3 → Nat) a + S64x29x64.size a ≤ S64x496x64.size a
  h_S64x29x64 : 0 < S64x29x64.numel
  slices_S64x32x64_o0_3_0_S64x1x64 : S64x32x64.Slices ![0, 3, 0] S64x1x64
  slices_S64x32x64_o0_4_0_S64x28x64 : S64x32x64.Slices ![0, 4, 0] S64x28x64
  broadcasts_S64x1x64_S64x28x64 : S64x1x64.Broadcasts S64x28x64
  inb_S64x496x64_S64x28x64_0_90_0 : ∀ a, (![0, 90, 0] : Fin 3 → Nat) a + S64x28x64.size a ≤ S64x496x64.size a
  h_S64x28x64 : 0 < S64x28x64.numel
  slices_S64x32x64_o0_4_0_S64x1x64 : S64x32x64.Slices ![0, 4, 0] S64x1x64
  slices_S64x32x64_o0_5_0_S64x27x64 : S64x32x64.Slices ![0, 5, 0] S64x27x64
  broadcasts_S64x1x64_S64x27x64 : S64x1x64.Broadcasts S64x27x64
  inb_S64x496x64_S64x27x64_0_118_0 : ∀ a, (![0, 118, 0] : Fin 3 → Nat) a + S64x27x64.size a ≤ S64x496x64.size a
  h_S64x27x64 : 0 < S64x27x64.numel
  slices_S64x32x64_o0_5_0_S64x1x64 : S64x32x64.Slices ![0, 5, 0] S64x1x64
  slices_S64x32x64_o0_6_0_S64x26x64 : S64x32x64.Slices ![0, 6, 0] S64x26x64
  broadcasts_S64x1x64_S64x26x64 : S64x1x64.Broadcasts S64x26x64
  inb_S64x496x64_S64x26x64_0_145_0 : ∀ a, (![0, 145, 0] : Fin 3 → Nat) a + S64x26x64.size a ≤ S64x496x64.size a
  h_S64x26x64 : 0 < S64x26x64.numel
  slices_S64x32x64_o0_6_0_S64x1x64 : S64x32x64.Slices ![0, 6, 0] S64x1x64
  slices_S64x32x64_o0_7_0_S64x25x64 : S64x32x64.Slices ![0, 7, 0] S64x25x64
  broadcasts_S64x1x64_S64x25x64 : S64x1x64.Broadcasts S64x25x64
  inb_S64x496x64_S64x25x64_0_171_0 : ∀ a, (![0, 171, 0] : Fin 3 → Nat) a + S64x25x64.size a ≤ S64x496x64.size a
  h_S64x25x64 : 0 < S64x25x64.numel
  slices_S64x32x64_o0_7_0_S64x1x64 : S64x32x64.Slices ![0, 7, 0] S64x1x64
  slices_S64x32x64_o0_8_0_S64x24x64 : S64x32x64.Slices ![0, 8, 0] S64x24x64
  broadcasts_S64x1x64_S64x24x64 : S64x1x64.Broadcasts S64x24x64
  inb_S64x496x64_S64x24x64_0_196_0 : ∀ a, (![0, 196, 0] : Fin 3 → Nat) a + S64x24x64.size a ≤ S64x496x64.size a
  h_S64x24x64 : 0 < S64x24x64.numel
  slices_S64x32x64_o0_8_0_S64x1x64 : S64x32x64.Slices ![0, 8, 0] S64x1x64
  slices_S64x32x64_o0_9_0_S64x23x64 : S64x32x64.Slices ![0, 9, 0] S64x23x64
  broadcasts_S64x1x64_S64x23x64 : S64x1x64.Broadcasts S64x23x64
  inb_S64x496x64_S64x23x64_0_220_0 : ∀ a, (![0, 220, 0] : Fin 3 → Nat) a + S64x23x64.size a ≤ S64x496x64.size a
  h_S64x23x64 : 0 < S64x23x64.numel
  slices_S64x32x64_o0_9_0_S64x1x64 : S64x32x64.Slices ![0, 9, 0] S64x1x64
  slices_S64x32x64_o0_10_0_S64x22x64 : S64x32x64.Slices ![0, 10, 0] S64x22x64
  broadcasts_S64x1x64_S64x22x64 : S64x1x64.Broadcasts S64x22x64
  inb_S64x496x64_S64x22x64_0_243_0 : ∀ a, (![0, 243, 0] : Fin 3 → Nat) a + S64x22x64.size a ≤ S64x496x64.size a
  h_S64x22x64 : 0 < S64x22x64.numel
  slices_S64x32x64_o0_10_0_S64x1x64 : S64x32x64.Slices ![0, 10, 0] S64x1x64
  slices_S64x32x64_o0_11_0_S64x21x64 : S64x32x64.Slices ![0, 11, 0] S64x21x64
  broadcasts_S64x1x64_S64x21x64 : S64x1x64.Broadcasts S64x21x64
  inb_S64x496x64_S64x21x64_0_265_0 : ∀ a, (![0, 265, 0] : Fin 3 → Nat) a + S64x21x64.size a ≤ S64x496x64.size a
  h_S64x21x64 : 0 < S64x21x64.numel
  slices_S64x32x64_o0_11_0_S64x1x64 : S64x32x64.Slices ![0, 11, 0] S64x1x64
  slices_S64x32x64_o0_12_0_S64x20x64 : S64x32x64.Slices ![0, 12, 0] S64x20x64
  broadcasts_S64x1x64_S64x20x64 : S64x1x64.Broadcasts S64x20x64
  inb_S64x496x64_S64x20x64_0_286_0 : ∀ a, (![0, 286, 0] : Fin 3 → Nat) a + S64x20x64.size a ≤ S64x496x64.size a
  h_S64x20x64 : 0 < S64x20x64.numel
  slices_S64x32x64_o0_12_0_S64x1x64 : S64x32x64.Slices ![0, 12, 0] S64x1x64
  slices_S64x32x64_o0_13_0_S64x19x64 : S64x32x64.Slices ![0, 13, 0] S64x19x64
  broadcasts_S64x1x64_S64x19x64 : S64x1x64.Broadcasts S64x19x64
  inb_S64x496x64_S64x19x64_0_306_0 : ∀ a, (![0, 306, 0] : Fin 3 → Nat) a + S64x19x64.size a ≤ S64x496x64.size a
  h_S64x19x64 : 0 < S64x19x64.numel
  slices_S64x32x64_o0_13_0_S64x1x64 : S64x32x64.Slices ![0, 13, 0] S64x1x64
  slices_S64x32x64_o0_14_0_S64x18x64 : S64x32x64.Slices ![0, 14, 0] S64x18x64
  broadcasts_S64x1x64_S64x18x64 : S64x1x64.Broadcasts S64x18x64
  inb_S64x496x64_S64x18x64_0_325_0 : ∀ a, (![0, 325, 0] : Fin 3 → Nat) a + S64x18x64.size a ≤ S64x496x64.size a
  h_S64x18x64 : 0 < S64x18x64.numel
  slices_S64x32x64_o0_14_0_S64x1x64 : S64x32x64.Slices ![0, 14, 0] S64x1x64
  slices_S64x32x64_o0_15_0_S64x17x64 : S64x32x64.Slices ![0, 15, 0] S64x17x64
  broadcasts_S64x1x64_S64x17x64 : S64x1x64.Broadcasts S64x17x64
  inb_S64x496x64_S64x17x64_0_343_0 : ∀ a, (![0, 343, 0] : Fin 3 → Nat) a + S64x17x64.size a ≤ S64x496x64.size a
  h_S64x17x64 : 0 < S64x17x64.numel
  slices_S64x32x64_o0_15_0_S64x1x64 : S64x32x64.Slices ![0, 15, 0] S64x1x64
  slices_S64x32x64_o0_16_0_S64x16x64 : S64x32x64.Slices ![0, 16, 0] S64x16x64
  broadcasts_S64x1x64_S64x16x64 : S64x1x64.Broadcasts S64x16x64
  inb_S64x496x64_S64x16x64_0_360_0 : ∀ a, (![0, 360, 0] : Fin 3 → Nat) a + S64x16x64.size a ≤ S64x496x64.size a
  h_S64x16x64 : 0 < S64x16x64.numel
  slices_S64x32x64_o0_16_0_S64x1x64 : S64x32x64.Slices ![0, 16, 0] S64x1x64
  slices_S64x32x64_o0_17_0_S64x15x64 : S64x32x64.Slices ![0, 17, 0] S64x15x64
  broadcasts_S64x1x64_S64x15x64 : S64x1x64.Broadcasts S64x15x64
  inb_S64x496x64_S64x15x64_0_376_0 : ∀ a, (![0, 376, 0] : Fin 3 → Nat) a + S64x15x64.size a ≤ S64x496x64.size a
  h_S64x15x64 : 0 < S64x15x64.numel
  slices_S64x32x64_o0_17_0_S64x1x64 : S64x32x64.Slices ![0, 17, 0] S64x1x64
  slices_S64x32x64_o0_18_0_S64x14x64 : S64x32x64.Slices ![0, 18, 0] S64x14x64
  broadcasts_S64x1x64_S64x14x64 : S64x1x64.Broadcasts S64x14x64
  inb_S64x496x64_S64x14x64_0_391_0 : ∀ a, (![0, 391, 0] : Fin 3 → Nat) a + S64x14x64.size a ≤ S64x496x64.size a
  h_S64x14x64 : 0 < S64x14x64.numel
  slices_S64x32x64_o0_18_0_S64x1x64 : S64x32x64.Slices ![0, 18, 0] S64x1x64
  slices_S64x32x64_o0_19_0_S64x13x64 : S64x32x64.Slices ![0, 19, 0] S64x13x64
  broadcasts_S64x1x64_S64x13x64 : S64x1x64.Broadcasts S64x13x64
  inb_S64x496x64_S64x13x64_0_405_0 : ∀ a, (![0, 405, 0] : Fin 3 → Nat) a + S64x13x64.size a ≤ S64x496x64.size a
  h_S64x13x64 : 0 < S64x13x64.numel
  slices_S64x32x64_o0_19_0_S64x1x64 : S64x32x64.Slices ![0, 19, 0] S64x1x64
  slices_S64x32x64_o0_20_0_S64x12x64 : S64x32x64.Slices ![0, 20, 0] S64x12x64
  broadcasts_S64x1x64_S64x12x64 : S64x1x64.Broadcasts S64x12x64
  inb_S64x496x64_S64x12x64_0_418_0 : ∀ a, (![0, 418, 0] : Fin 3 → Nat) a + S64x12x64.size a ≤ S64x496x64.size a
  h_S64x12x64 : 0 < S64x12x64.numel
  slices_S64x32x64_o0_20_0_S64x1x64 : S64x32x64.Slices ![0, 20, 0] S64x1x64
  slices_S64x32x64_o0_21_0_S64x11x64 : S64x32x64.Slices ![0, 21, 0] S64x11x64
  broadcasts_S64x1x64_S64x11x64 : S64x1x64.Broadcasts S64x11x64
  inb_S64x496x64_S64x11x64_0_430_0 : ∀ a, (![0, 430, 0] : Fin 3 → Nat) a + S64x11x64.size a ≤ S64x496x64.size a
  h_S64x11x64 : 0 < S64x11x64.numel
  slices_S64x32x64_o0_21_0_S64x1x64 : S64x32x64.Slices ![0, 21, 0] S64x1x64
  slices_S64x32x64_o0_22_0_S64x10x64 : S64x32x64.Slices ![0, 22, 0] S64x10x64
  broadcasts_S64x1x64_S64x10x64 : S64x1x64.Broadcasts S64x10x64
  inb_S64x496x64_S64x10x64_0_441_0 : ∀ a, (![0, 441, 0] : Fin 3 → Nat) a + S64x10x64.size a ≤ S64x496x64.size a
  h_S64x10x64 : 0 < S64x10x64.numel
  slices_S64x32x64_o0_22_0_S64x1x64 : S64x32x64.Slices ![0, 22, 0] S64x1x64
  slices_S64x32x64_o0_23_0_S64x9x64 : S64x32x64.Slices ![0, 23, 0] S64x9x64
  broadcasts_S64x1x64_S64x9x64 : S64x1x64.Broadcasts S64x9x64
  inb_S64x496x64_S64x9x64_0_451_0 : ∀ a, (![0, 451, 0] : Fin 3 → Nat) a + S64x9x64.size a ≤ S64x496x64.size a
  h_S64x9x64 : 0 < S64x9x64.numel
  slices_S64x32x64_o0_23_0_S64x1x64 : S64x32x64.Slices ![0, 23, 0] S64x1x64
  slices_S64x32x64_o0_24_0_S64x8x64 : S64x32x64.Slices ![0, 24, 0] S64x8x64
  broadcasts_S64x1x64_S64x8x64 : S64x1x64.Broadcasts S64x8x64
  inb_S64x496x64_S64x8x64_0_460_0 : ∀ a, (![0, 460, 0] : Fin 3 → Nat) a + S64x8x64.size a ≤ S64x496x64.size a
  h_S64x8x64 : 0 < S64x8x64.numel
  slices_S64x32x64_o0_24_0_S64x1x64 : S64x32x64.Slices ![0, 24, 0] S64x1x64
  slices_S64x32x64_o0_25_0_S64x7x64 : S64x32x64.Slices ![0, 25, 0] S64x7x64
  broadcasts_S64x1x64_S64x7x64 : S64x1x64.Broadcasts S64x7x64
  inb_S64x496x64_S64x7x64_0_468_0 : ∀ a, (![0, 468, 0] : Fin 3 → Nat) a + S64x7x64.size a ≤ S64x496x64.size a
  h_S64x7x64 : 0 < S64x7x64.numel
  slices_S64x32x64_o0_25_0_S64x1x64 : S64x32x64.Slices ![0, 25, 0] S64x1x64
  slices_S64x32x64_o0_26_0_S64x6x64 : S64x32x64.Slices ![0, 26, 0] S64x6x64
  broadcasts_S64x1x64_S64x6x64 : S64x1x64.Broadcasts S64x6x64
  inb_S64x496x64_S64x6x64_0_475_0 : ∀ a, (![0, 475, 0] : Fin 3 → Nat) a + S64x6x64.size a ≤ S64x496x64.size a
  h_S64x6x64 : 0 < S64x6x64.numel
  slices_S64x32x64_o0_26_0_S64x1x64 : S64x32x64.Slices ![0, 26, 0] S64x1x64
  slices_S64x32x64_o0_27_0_S64x5x64 : S64x32x64.Slices ![0, 27, 0] S64x5x64
  broadcasts_S64x1x64_S64x5x64 : S64x1x64.Broadcasts S64x5x64
  inb_S64x496x64_S64x5x64_0_481_0 : ∀ a, (![0, 481, 0] : Fin 3 → Nat) a + S64x5x64.size a ≤ S64x496x64.size a
  h_S64x5x64 : 0 < S64x5x64.numel
  slices_S64x32x64_o0_27_0_S64x1x64 : S64x32x64.Slices ![0, 27, 0] S64x1x64
  slices_S64x32x64_o0_28_0_S64x4x64 : S64x32x64.Slices ![0, 28, 0] S64x4x64
  broadcasts_S64x1x64_S64x4x64 : S64x1x64.Broadcasts S64x4x64
  inb_S64x496x64_S64x4x64_0_486_0 : ∀ a, (![0, 486, 0] : Fin 3 → Nat) a + S64x4x64.size a ≤ S64x496x64.size a
  h_S64x4x64 : 0 < S64x4x64.numel
  slices_S64x32x64_o0_28_0_S64x1x64 : S64x32x64.Slices ![0, 28, 0] S64x1x64
  slices_S64x32x64_o0_29_0_S64x3x64 : S64x32x64.Slices ![0, 29, 0] S64x3x64
  broadcasts_S64x1x64_S64x3x64 : S64x1x64.Broadcasts S64x3x64
  inb_S64x496x64_S64x3x64_0_490_0 : ∀ a, (![0, 490, 0] : Fin 3 → Nat) a + S64x3x64.size a ≤ S64x496x64.size a
  h_S64x3x64 : 0 < S64x3x64.numel
  slices_S64x32x64_o0_29_0_S64x1x64 : S64x32x64.Slices ![0, 29, 0] S64x1x64
  slices_S64x32x64_o0_30_0_S64x2x64 : S64x32x64.Slices ![0, 30, 0] S64x2x64
  broadcasts_S64x1x64_S64x2x64 : S64x1x64.Broadcasts S64x2x64
  inb_S64x496x64_S64x2x64_0_493_0 : ∀ a, (![0, 493, 0] : Fin 3 → Nat) a + S64x2x64.size a ≤ S64x496x64.size a
  h_S64x2x64 : 0 < S64x2x64.numel
  slices_S64x32x64_o0_30_0_S64x1x64 : S64x32x64.Slices ![0, 30, 0] S64x1x64
  slices_S64x32x64_o0_31_0_S64x1x64 : S64x32x64.Slices ![0, 31, 0] S64x1x64
  inb_S64x496x64_S64x1x64_0_495_0 : ∀ a, (![0, 495, 0] : Fin 3 → Nat) a + S64x1x64.size a ≤ S64x496x64.size a
  h_S64x1x64 : 0 < S64x1x64.numel
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x64.size a ≤ S8192x32x64.size a
  hwx0_0 : ∀ i : grid0.Coords, EltTy.bits .f32 = 32 ∨ (Rect.block (s := S8192x32x64) S64x32x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x496x64.size a ≤ S8192x496x64.size a
  hwx0_2 : ∀ i : grid0.Coords, EltTy.bits .f32 = 32 ∨ (Rect.block (s := S8192x496x64) S64x496x64.size (cc0_transform_2 i) (hinb0_2 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg0) S64x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x496x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x32x64 : Shape := ⟨3, ![8192, 32, 64]⟩
abbrev S64x64 : Shape := ⟨2, ![64, 64]⟩
abbrev S_ : Shape := ⟨0, ![]⟩
abbrev S32x32 : Shape := ⟨2, ![32, 32]⟩
abbrev S1024 : Shape := ⟨1, ![1024]⟩
abbrev S496 : Shape := ⟨1, ![496]⟩
abbrev S1024x1 : Shape := ⟨2, ![1024, 1]⟩
abbrev S496x1 : Shape := ⟨2, ![496, 1]⟩
abbrev S8192x496x64 : Shape := ⟨3, ![8192, 496, 64]⟩

abbrev nBuf : Space → Nat
  | .hbm => 139
  | .vmem => 0
  | .smem => 0
  | _ => 0

abbrev hbmTy0_0 (i : Nat) : BufTy := match i % 128 with
  | 0 => ⟨S8192x32x64, .f32⟩
  | 1 => ⟨S64x64, .f32⟩
  | 2 => ⟨S_, .f32⟩
  | 3 => ⟨S32x32, .f32⟩
  | 4 => ⟨S32x32, .i32⟩
  | 5 => ⟨S_, .i32⟩
  | 6 => ⟨S32x32, .i32⟩
  | 7 => ⟨S32x32, .i32⟩
  | 8 => ⟨S32x32, .i32⟩
  | 9 => ⟨S32x32, .i1⟩
  | 10 => ⟨S_, .f32⟩
  | 11 => ⟨S32x32, .f32⟩
  | 12 => ⟨S32x32, .f32⟩
  | 13 => ⟨S_, .f32⟩
  | 14 => ⟨S32x32, .f32⟩
  | 15 => ⟨S32x32, .i1⟩
  | 16 => ⟨S1024, .i1⟩
  | 17 => ⟨S1024, .i32⟩
  | 18 => ⟨S_, .i32⟩
  | 19 => ⟨S_, .i32⟩
  | 20 => ⟨S1024, .i32⟩
  | 21 => ⟨S_, .i32⟩
  | 22 => ⟨S496, .i32⟩
  | 23 => ⟨S_, .i32⟩
  | 24 => ⟨S_, .i32⟩
  | 25 => ⟨S1024, .i32⟩
  | 26 => ⟨S1024, .i32⟩
  | 27 => ⟨S_, .i32⟩
  | 28 => ⟨S1024, .i32⟩
  | 29 => ⟨S1024, .i1⟩
  | 30 => ⟨S_, .i32⟩
  | 31 => ⟨S1024, .i32⟩
  | 32 => ⟨S1024, .i32⟩
  | 33 => ⟨S1024, .i32⟩
  | 34 => ⟨S1024x1, .i32⟩
  | 35 => ⟨S_, .i32⟩
  | 36 => ⟨S1024, .i32⟩
  | 37 => ⟨S496, .i32⟩
  | 38 => ⟨S_, .i32⟩
  | 39 => ⟨S_, .i32⟩
  | 40 => ⟨S496, .i32⟩
  | 41 => ⟨S_, .i32⟩
  | 42 => ⟨S496, .i32⟩
  | 43 => ⟨S496, .i32⟩
  | 44 => ⟨S496, .i32⟩
  | 45 => ⟨S_, .i32⟩
  | 46 => ⟨S496, .i32⟩
  | 47 => ⟨S496, .i1⟩
  | 48 => ⟨S496, .i32⟩
  | 49 => ⟨S496, .i32⟩
  | 50 => ⟨S_, .i32⟩
  | 51 => ⟨S496, .i32⟩
  | 52 => ⟨S496, .i1⟩
  | 53 => ⟨S496, .i1⟩
  | 54 => ⟨S_, .i32⟩
  | 55 => ⟨S496, .i32⟩
  | 56 => ⟨S496, .i32⟩
  | 57 => ⟨S496, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S496, .i32⟩
  | 65 => ⟨S496, .i32⟩
  | 66 => ⟨S_, .i32⟩
  | 67 => ⟨S496, .i32⟩
  | 68 => ⟨S496, .i1⟩
  | 69 => ⟨S_, .i32⟩
  | 70 => ⟨S496, .i32⟩
  | 71 => ⟨S496, .i1⟩
  | 72 => ⟨S_, .i32⟩
  | 73 => ⟨S_, .i1⟩
  | 74 => ⟨S496, .i1⟩
  | 75 => ⟨S496, .i1⟩
  | 76 => ⟨S496, .i1⟩
  | 77 => ⟨S496, .i32⟩
  | 78 => ⟨S496, .i32⟩
  | 79 => ⟨S496, .i32⟩
  | 80 => ⟨S_, .i32⟩
  | 81 => ⟨S496, .i32⟩
  | 82 => ⟨S496, .i32⟩
  | 83 => ⟨S496, .i32⟩
  | 84 => ⟨S_, .i32⟩
  | 85 => ⟨S496, .i32⟩
  | 86 => ⟨S496, .i1⟩
  | 87 => ⟨S496, .i32⟩
  | 88 => ⟨S496, .i32⟩
  | 89 => ⟨S_, .i32⟩
  | 90 => ⟨S496, .i32⟩
  | 91 => ⟨S496, .i1⟩
  | 92 => ⟨S496, .i1⟩
  | 93 => ⟨S_, .i32⟩
  | 94 => ⟨S496, .i32⟩
  | 95 => ⟨S496, .i32⟩
  | 96 => ⟨S496, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S496, .i32⟩
  | 104 => ⟨S496, .i32⟩
  | 105 => ⟨S_, .i32⟩
  | 106 => ⟨S496, .i32⟩
  | 107 => ⟨S496, .i1⟩
  | 108 => ⟨S_, .i32⟩
  | 109 => ⟨S496, .i32⟩
  | 110 => ⟨S496, .i1⟩
  | 111 => ⟨S_, .i32⟩
  | 112 => ⟨S_, .i1⟩
  | 113 => ⟨S496, .i1⟩
  | 114 => ⟨S496, .i1⟩
  | 115 => ⟨S496, .i1⟩
  | 116 => ⟨S496, .i32⟩
  | 117 => ⟨S496, .i32⟩
  | 118 => ⟨S496, .i32⟩
  | 119 => ⟨S8192x32x64, .f32⟩
  | 120 => ⟨S_, .i32⟩
  | 121 => ⟨S496, .i32⟩
  | 122 => ⟨S496, .i1⟩
  | 123 => ⟨S_, .i32⟩
  | 124 => ⟨S496, .i32⟩
  | 125 => ⟨S496, .i32⟩
  | 126 => ⟨S496, .i32⟩
  | 127 => ⟨S496x1, .i32⟩
  | _ => ⟨S8192x32x64, .f32⟩

abbrev hbmTy0_1 (i : Nat) : BufTy := match i % 128 with
  | 0 => ⟨S8192x496x64, .f32⟩
  | 1 => ⟨S_, .i32⟩
  | 2 => ⟨S496, .i32⟩
  | 3 => ⟨S496, .i1⟩
  | 4 => ⟨S_, .i32⟩
  | 5 => ⟨S496, .i32⟩
  | 6 => ⟨S496, .i32⟩
  | 7 => ⟨S496, .i32⟩
  | 8 => ⟨S496x1, .i32⟩
  | 9 => ⟨S8192x496x64, .f32⟩
  | 10 => ⟨S8192x496x64, .f32⟩
  | _ => ⟨S8192x32x64, .f32⟩

abbrev hbmTy (i : Nat) : BufTy := match i / 128 with
  | 0 => hbmTy0_0 i
  | 1 => hbmTy0_1 i
  | _ => ⟨S8192x32x64, .f32⟩

abbrev bufTy : (tb : Table) → Fin (tcTables nBuf tb) → BufTy
  | .hbm, ⟨i, _⟩ => hbmTy i
  | _, _ => ⟨S8192x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v6 : Ref sig .tc := ⟨.hbm, 26, rfl⟩
abbrev main_c_2 : Ref sig .tc := ⟨.hbm, 27, rfl⟩
abbrev main_v7 : Ref sig .tc := ⟨.hbm, 28, rfl⟩
abbrev main_v8 : Ref sig .tc := ⟨.hbm, 29, rfl⟩
abbrev main_c_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_4 : Ref sig .tc := ⟨.hbm, 35, rfl⟩
abbrev main_v13 : Ref sig .tc := ⟨.hbm, 36, rfl⟩
abbrev main_v14 : Ref sig .tc := ⟨.hbm, 37, rfl⟩
abbrev main_call3_call0_c : Ref sig .tc := ⟨.hbm, 38, rfl⟩
abbrev main_call3_call0_v0 : Ref sig .tc := ⟨.hbm, 39, rfl⟩
abbrev main_v15 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v16 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v17 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v18 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v19 : Ref sig .tc := ⟨.hbm, 118, rfl⟩
abbrev main_v20 : Ref sig .tc := ⟨.hbm, 119, rfl⟩
abbrev main_c_9 : Ref sig .tc := ⟨.hbm, 120, rfl⟩
abbrev main_v21 : Ref sig .tc := ⟨.hbm, 121, rfl⟩
abbrev main_v22 : Ref sig .tc := ⟨.hbm, 122, rfl⟩
abbrev main_c_10 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_c_11 : Ref sig .tc := ⟨.hbm, 129, rfl⟩
abbrev main_v28 : Ref sig .tc := ⟨.hbm, 130, rfl⟩
abbrev main_v29 : Ref sig .tc := ⟨.hbm, 131, rfl⟩
abbrev main_c_12 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  shapeCasts_S32x32_S1024 : S32x32.ShapeCasts S1024
  natLt_1_32 : 1 < 32
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S496 : S_.BroadcastsInDim S496 (![] : Fin 0 → Fin S496.rank)
  bcast_S_S1024 : S_.BroadcastsInDim S1024 (![] : Fin 0 → Fin S1024.rank)
  bcast_S1024_S1024x1_0 : S1024.BroadcastsInDim S1024x1 (![0] : Fin 1 → Fin S1024x1.rank)
  reduceWindows_S496_S496_w496s1p495_0 : S496.ReduceWindows (![496] : Fin 1 → Nat) ![1] ![495] ![0] S496
  bcast_S496_S496x1_0 : S496.BroadcastsInDim S496x1 (![0] : Fin 1 → Fin S496x1.rank)
  scatter_S496_S1024x1_S1024_n_0_0_1_wf : ScatterDims.WF S496 S1024x1 S1024 [] [0] [0] 1
  dot_S8192x32x64_S64x64_S8192x32x64_2_0_01_1_n_n_wf : DotDims.WF S8192x32x64 S64x64 S8192x32x64 [2] [0] [0, 1] [1] [] []
  gather_S8192x32x64_S496x1_S8192x496x64_02_1_n_n_1_1_8192164_wf : GatherDims.WF S8192x32x64 S496x1 S8192x496x64 [0, 2] [1] [] [1] [] 1 ![8192, 1, 64]

variable [Facts₀]

def scatter_S496_S1024x1_S1024_n_0_0_1 : ScatterDims S496 S1024x1 S1024 where
  updateWindowDims := []
  insertedWindowDims := [0]
  scatterDimsToOperandDims := [0]
  indexVectorDim := 1
  wf := scatter_S496_S1024x1_S1024_n_0_0_1_wf
def dot_S8192x32x64_S64x64_S8192x32x64_2_0_01_1_n_n : DotDims S8192x32x64 S64x64 S8192x32x64 where
  lhsContracting := [2]
  rhsContracting := [0]
  lhsNonContracting := [0, 1]
  rhsNonContracting := [1]
  lhsBatch := []
  rhsBatch := []
  wf := dot_S8192x32x64_S64x64_S8192x32x64_2_0_01_1_n_n_wf
def gather_S8192x32x64_S496x1_S8192x496x64_02_1_n_n_1_1_8192164 : GatherDims S8192x32x64 S496x1 S8192x496x64 where
  offsetDims := [0, 2]
  collapsedSliceDims := [1]
  operandBatchingDims := []
  startIndicesBatchingDims := []
  startIndexMap := [1]
  indexVectorDim := 1
  sliceSizes := ![8192, 1, 64]
  wf := gather_S8192x32x64_S496x1_S8192x496x64_02_1_n_n_1_1_8192164_wf

class Facts : Prop extends Facts₀ where

variable [Facts]
-- ==== Proof.PairIndex.lean ====
/-
  The pairs i < j of 32 fields in row-major order (0,1), (0,2), …, (0,31), (1,2), …, (30,31): 496 of them.
  Pair number p sits at the flattened position 32 * i + j of the strict upper triangle of a 32 x 32 array;
  `positions` lists those positions in ascending order, `left p` and `right p` are the pair's two fields.
-/
import Mathlib.Data.List.Basic
import Mathlib.Data.Nat.Basic

namespace Cert.Pairs

/-- The flattened positions of the strict upper triangle, ascending. -/
def positions : List ℕ := (List.range 1024).filter fun k => decide (k / 32 < k % 32)

/-- The flattened position of pair number `p` (zero past the last pair). -/
def pos (p : ℕ) : ℕ := positions.getD p 0

/-- The left field of pair number `p`. -/
def left (p : ℕ) : ℕ := pos p / 32

/-- The right field of pair number `p`. -/
def right (p : ℕ) : ℕ := pos p % 32

end Cert.Pairs
-- ==== Proof.Spec.lean ====
/-
  The specification: what both programs compute, as one function of the two argument arrays.

  For a batch of B rows, each holding 32 fields of 64 numbers, and a 64 x 64 matrix w, pair number p of
  row b — the pair (i, j) = (leftF p, rightF p), i < j, in row-major order — holds at lane d

      (sum over e of x[b, i, e] * w[e, d]) * x[b, j, d] :

  field i projected by w, times field j, lane by lane.
-/
import proofs.«103675_j64793876628087_1_alg».proof.Proof.PairIndex
import Idealize.ShloMosaic.Lib.ValueIdx
import Idealize.ShloMosaic.PureOps.Ideal

noncomputable section

open scoped BigOperators

namespace Cert.Bilinear

open Idealize.ShloMosaic Idealize.ShloMosaic.ValueIdx

/-- Every pair's left field is a field number. -/
theorem left_lt : ∀ p : Fin 496, Cert.Pairs.left p.val < 32 := by decide +kernel

/-- Every pair's right field is a field number. -/
theorem right_lt (p : ℕ) : Cert.Pairs.right p < 32 := Nat.mod_lt _ (by decide)

/-- The left field of pair number `p`. -/
def leftF (p : Fin 496) : Fin 32 := ⟨Cert.Pairs.left p.val, left_lt p⟩

/-- The right field of pair number `p`. -/
def rightF (p : Fin 496) : Fin 32 := ⟨Cert.Pairs.right p.val, right_lt p.val⟩

/-- Row `i` of the triangle (the pairs whose left field is `i`) starts at pair number `i (63 - i) / 2`, and
    its `k`-th pair is `(i, i + 1 + k)`. -/
theorem row_pairs : ∀ i : Fin 31, ∀ k : Fin (31 - i.val),
    Cert.Pairs.left (i.val * (63 - i.val) / 2 + k.val) = i.val
      ∧ Cert.Pairs.right (i.val * (63 - i.val) / 2 + k.val) = i.val + 1 + k.val := by
  decide +kernel

/-- The pairwise products of projected fields: at `(b, p, d)`, field `leftF p` of row `b` projected by `w`,
    at lane `d`, times field `rightF p` of row `b` at lane `d`. -/
def pairProd (B : ℕ) (x : (⟨3, ![B, 32, 64]⟩ : Shape).Idx → EReal) (w : (⟨2, ![64, 64]⟩ : Shape).Idx → EReal) :
    (⟨3, ![B, 496, 64]⟩ : Shape).Idx → EReal :=
  fun j => (∑ e : Fin 64, x (ix3 (j 0) (leftF (j 1)) e) * w (ix2 e (j 2))) * x (ix3 (j 0) (rightF (j 1)) (j 2))

theorem pairProd_apply (B : ℕ) (x : (⟨3, ![B, 32, 64]⟩ : Shape).Idx → EReal) (w : (⟨2, ![64, 64]⟩ : Shape).Idx → EReal)
    (b : Fin B) (p : Fin 496) (d : Fin 64) :
    pairProd B x w (ix3 b p d) = (∑ e : Fin 64, x (ix3 b (leftF p) e) * w (ix2 e d)) * x (ix3 b (rightF p) d) := rfl

end Cert.Bilinear

end
-- ==== Proof.LibPlainDot.lean ====
/-
  A plain matrix product read at an index, at the ideal values.

  The dimension numbers `DotDims.plain M K N` contract the second axis of an `M × K` left operand with the first axis of a
  `K × N` right operand. At the ideal instance a `tpu.matmul` with these numbers into the zero accumulator, and the
  host's `dot_general` with the same numbers, are both — at the result index `(p, q)` — the finite sum over `k : Fin K`
  of `lhs (p, k) * rhs (k, q)` on the extended reals. Nothing is assumed of `M`, `K`, `N` or of the operands' formats.

  The proof names the two operand indices coordinate by coordinate (`lhsIdx_plain`, `rhsIdx_plain`: a batch-free,
  single-contraction record sends `(p, q)` and `k` to `(p, k)` and `(k, q)`) and re-indexes the one-axis contraction shape
  by its coordinate.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : Nat)

/-- The one-axis contraction shape of a plain product, identified with `Fin K`. -/
abbrev contrFin : (DotDims.plain M K N).contr.Idx ≃ Fin K := contrEquiv1 (DotDims.plain M K N) K rfl rfl

/-- The left operand's index at result index `(p, q)` and contraction coordinate `k` is `(p, k)`. -/
theorem lhsIdx_plain (p : Fin M) (q : Fin N) (k : Fin K) :
    (DotDims.plain M K N).lhsIdx (ix2 p q) ((contrFin M K N).symm k) = ix2 p k := by
  funext a
  apply Fin.ext
  match a with
  | ⟨0, _⟩ =>
    show ((DotDims.plain M K N).lhsIdx (ix2 p q) ((contrFin M K N).symm k) (0 : Fin 2)).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    show ((DotDims.plain M K N).lhsIdx (ix2 p q) ((contrFin M K N).symm k) (1 : Fin 2)).val = k.val
    exact ((DotDims.plain M K N).lhsIdx_val_of_single rfl _ _).trans
      (contrEquiv1_symm_val (DotDims.plain M K N) K rfl rfl k)

/-- The right operand's index at result index `(p, q)` and contraction coordinate `k` is `(k, q)`. -/
theorem rhsIdx_plain (p : Fin M) (q : Fin N) (k : Fin K) :
    (DotDims.plain M K N).rhsIdx (ix2 p q) ((contrFin M K N).symm k) = ix2 k q := by
  funext a
  apply Fin.ext
  match a with
  | ⟨0, _⟩ =>
    show ((DotDims.plain M K N).rhsIdx (ix2 p q) ((contrFin M K N).symm k) (0 : Fin 2)).val = k.val
    exact ((DotDims.plain M K N).rhsIdx_val_of_single rfl _ _).trans
      (contrEquiv1_symm_val (DotDims.plain M K N) K rfl rfl k)
  | ⟨1, _⟩ =>
    show ((DotDims.plain M K N).rhsIdx (ix2 p q) ((contrFin M K N).symm k) (1 : Fin 2)).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)`, over `Fin K`. -/
theorem sum_plain (lhs : (⟨2, ![M, K]⟩ : Shape).Idx → EReal) (rhs : (⟨2, ![K, N]⟩ : Shape).Idx → EReal) (p : Fin M) (q : Fin N) :
    (∑ c : (DotDims.plain M K N).contr.Idx,
        lhs ((DotDims.plain M K N).lhsIdx (ix2 p q) c) * rhs ((DotDims.plain M K N).rhsIdx (ix2 p q) c))
      = ∑ k : Fin K, lhs (ix2 p k) * rhs (ix2 k q) := by
  rw [← Equiv.sum_comp (contrFin M K N).symm]
  exact Finset.sum_congr rfl fun k _ => by rw [lhsIdx_plain, rhsIdx_plain]

/-- A `tpu.matmul` with plain dimension numbers into the zero accumulator, at the ideal values, read at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain M K N lhs rhs p q)

/-- The host's `dot_general` with plain dimension numbers, at the ideal values, read at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain M K N lhs rhs p q)

end Cert.Lib.PlainDot

end
-- ==== Proof.KernelPiece.lean ====
/-
  One stored piece of the kernel's output block, read at an index.

  The kernel projects its block of 64 rows in one product: the block [64, 32, 64] is laid out as a
  2048 x 64 matrix (row 32 b + i is field i of row b), multiplied by the 64 x 64 matrix, and laid back.
  So the projected block at (b, i, d) is the sum over e of x[b, i, e] * w[e, d]  (`proj_apply`).
  Piece i of the output block takes the projected field i — one field, repeated along the piece — times the
  fields i + 1, …, i + n of the block: at (b, k, d) it is proj[b, i, d] * x[b, i + 1 + k, d]  (`piece_apply`).
-/
import proofs.«103675_j64793876628087_1_alg».proof.Proof.Spec
import proofs.«103675_j64793876628087_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.Bilinear

open Idealize.ShloMosaic Idealize.ShloMosaic.ValueIdx

/-- The block projected by `w` in one 2048 x 64 by 64 x 64 product, read at `(b, i, d)`. -/
theorem proj_apply (v0 : FVec Ideal ⟨3, ![64, 32, 64]⟩ .f32) (v2 : FVec Ideal ⟨2, ![64, 64]⟩ .bf16)
    (hlt : FTy.bits .bf16 < FTy.bits .f32)
    (h1 : (⟨3, ![64, 32, 64]⟩ : Shape).ShapeCasts ⟨2, ![2048, 64]⟩)
    (h2 : (⟨2, ![64, 64]⟩ : Shape).ShapeCasts ⟨2, ![64, 64]⟩)
    (h3 : (⟨2, ![2048, 64]⟩ : Shape).ShapeCasts ⟨3, ![64, 32, 64]⟩)
    (b : Fin 64) (i : Fin 32) (d : Fin 64) :
    shapeCast ⟨3, ![64, 32, 64]⟩
        (matmul (DotDims.plain 2048 64 64) none (shapeCast ⟨2, ![2048, 64]⟩ (truncf .bf16 v0 hlt) h1)
          (shapeCast ⟨2, ![64, 64]⟩ v2 h2) (constant ⟨2, ![2048, 64]⟩ .f32 0x00000000#32)) h3 (ix3 b i d)
      = ∑ e : Fin 64, v0 (ix3 b i e) * v2 (ix2 e d) := by
  have hr : 32 * b.val + i.val < 2048 := by have := b.isLt; have := i.isLt; omega
  rw [shapeCast_apply _ h3 (ix3 b i d) (ix2 (⟨32 * b.val + i.val, hr⟩ : Fin 2048) d)
    (by rw [Shape.rowMajor_val_two, Shape.rowMajor_val_three]; simp [ix2, ix3]; omega)]
  refine (Cert.Lib.PlainDot.matmul_zero_apply 2048 64 64 none _ _ ⟨32 * b.val + i.val, hr⟩ d).trans ?_
  refine Finset.sum_congr rfl fun e _ => ?_
  rw [shapeCast_apply _ h1 (ix2 (⟨32 * b.val + i.val, hr⟩ : Fin 2048) e) (ix3 b i e)
      (by rw [Shape.rowMajor_val_two, Shape.rowMajor_val_three]; simp [ix2, ix3]; omega),
    shapeCast_apply _ h2 (ix2 e d) (ix2 e d) rfl]
  rfl

/-- Piece `i` of the output block at `(b, k, d)`: the projected field `i` at lane `d` times field `i + 1 + k` at
    lane `d`. -/
theorem piece_apply (n i : ℕ) (hn : i + 1 + n ≤ 32)
    (v0 v6 : FVec Ideal ⟨3, ![64, 32, 64]⟩ .f32)
    (hs1 : (⟨3, ![64, 32, 64]⟩ : Shape).Slices ![0, i, 0] ⟨3, ![64, 1, 64]⟩)
    (hs2 : (⟨3, ![64, 32, 64]⟩ : Shape).Slices ![0, i + 1, 0] ⟨3, ![64, n, 64]⟩)
    (hb : (⟨3, ![64, 1, 64]⟩ : Shape).Broadcasts ⟨3, ![64, n, 64]⟩)
    (b : Fin 64) (k : Fin n) (d : Fin 64) :
    mulf (broadcastTo ⟨3, ![64, n, 64]⟩ (extractStridedSlice ⟨3, ![64, 1, 64]⟩ ![0, i, 0] v6 hs1) hb)
        (extractStridedSlice ⟨3, ![64, n, 64]⟩ ![0, i + 1, 0] v0 hs2) (ix3 b k d)
      = v6 (ix3 b (⟨i, by omega⟩ : Fin 32) d) * v0 (ix3 b (⟨i + 1 + k.val, by have := k.isLt; omega⟩ : Fin 32) d) := by
  rw [mulf_apply]
  congr 1
  · rw [broadcastTo_apply _ hb (ix3 b k d) (ix3 b (0 : Fin 1) d) (by
      intro a
      match a with
      | ⟨0, _⟩ => rfl
      | ⟨1, _⟩ => rfl
      | ⟨2, _⟩ => rfl)]
    exact extractStridedSlice_apply _ v6 hs1 (ix3 b (0 : Fin 1) d) _ (by
      intro a
      match a with
      | ⟨0, _⟩ => simp [ix3]
      | ⟨1, _⟩ => simp [ix3]
      | ⟨2, _⟩ => simp [ix3])
  · exact extractStridedSlice_apply _ v0 hs2 (ix3 b k d) _ (by
      intro a
      match a with
      | ⟨0, _⟩ => simp [ix3]
      | ⟨1, _⟩ => simp [ix3]
      | ⟨2, _⟩ => simp [ix3])

/-- The place of a piece in the output block: local index `(b, k, d)` of the piece that starts at pair number
    `off` is the block's index `(b, off + k, d)`. -/
theorem piece_emb (n off : ℕ) (hlt : off + n ≤ 496)
    (inb : ∀ a, (![0, off, 0] : Fin 3 → ℕ) a + (![64, n, 64] : Fin 3 → ℕ) a ≤ (⟨3, ![64, 496, 64]⟩ : Shape).size a)
    (b : Fin 64) (k : Fin n) (d : Fin 64) :
    (Rect.unit (s := ⟨3, ![64, 496, 64]⟩) ![0, off, 0] ![64, n, 64] inb).emb (ix3 b k d)
      = ix3 b (⟨off + k.val, by have := k.isLt; omega⟩ : Fin 496) d := by
  funext a
  apply Fin.ext
  match a with
  | ⟨0, _⟩ => show 0 + 1 * b.val = b.val; omega
  | ⟨1, _⟩ => show off + 1 * k.val = off + k.val; omega
  | ⟨2, _⟩ => show 0 + 1 * d.val = d.val; omega

/-- Piece `i` is the specification restricted to its rectangle: the piece for left field `i` holds the
    `n = 31 - i` pairs `(i, i + 1), …, (i, 31)`, which are the pair numbers `off, …, off + n - 1` with
    `off = i (63 - i) / 2`. -/
theorem piece_spec (i n off : ℕ) (hi : i < 31) (hn : n = 31 - i) (hoff : off = i * (63 - i) / 2)
    (v0 v6 : FVec Ideal ⟨3, ![64, 32, 64]⟩ .f32) (v2 : FVec Ideal ⟨2, ![64, 64]⟩ .bf16)
    (hv6 : ∀ (b : Fin 64) (f : Fin 32) (d : Fin 64), v6 (ix3 b f d) = ∑ e : Fin 64, v0 (ix3 b f e) * v2 (ix2 e d))
    (hs1 : (⟨3, ![64, 32, 64]⟩ : Shape).Slices ![0, i, 0] ⟨3, ![64, 1, 64]⟩)
    (hs2 : (⟨3, ![64, 32, 64]⟩ : Shape).Slices ![0, i + 1, 0] ⟨3, ![64, n, 64]⟩)
    (hb : (⟨3, ![64, 1, 64]⟩ : Shape).Broadcasts ⟨3, ![64, n, 64]⟩)
    (inb : ∀ a, (![0, off, 0] : Fin 3 → ℕ) a + (![64, n, 64] : Fin 3 → ℕ) a ≤ (⟨3, ![64, 496, 64]⟩ : Shape).size a)
    (x : (⟨3, ![64, n, 64]⟩ : Shape).Idx) :
    mulf (broadcastTo ⟨3, ![64, n, 64]⟩ (extractStridedSlice ⟨3, ![64, 1, 64]⟩ ![0, i, 0] v6 hs1) hb)
        (extractStridedSlice ⟨3, ![64, n, 64]⟩ ![0, i + 1, 0] v0 hs2) x
      = pairProd 64 v0 v2 ((Rect.unit (s := ⟨3, ![64, 496, 64]⟩) ![0, off, 0] ![64, n, 64] inb).emb x) := by
  obtain ⟨b, k, d, rfl⟩ : ∃ (b : Fin 64) (k : Fin n) (d : Fin 64), x = ix3 b k d := ⟨x 0, x 1, x 2, eq_ix3 x⟩
  have hlt : off + n ≤ 496 := inb 1
  have hk : k.val < 31 - i := hn ▸ k.isLt
  have hrow := row_pairs ⟨i, hi⟩ ⟨k.val, hk⟩
  rw [piece_apply n i (by omega) v0 v6 hs1 hs2 hb b k d, piece_emb n off hlt inb b k d,
    pairProd_apply, hv6]
  have hl : leftF ⟨off + k.val, by have := k.isLt; omega⟩ = (⟨i, by omega⟩ : Fin 32) :=
    Fin.ext (by show Cert.Pairs.left (off + k.val) = i; rw [hoff]; exact hrow.1)
  have hr : rightF ⟨off + k.val, by have := k.isLt; omega⟩ = (⟨i + 1 + k.val, by omega⟩ : Fin 32) :=
    Fin.ext (by show Cert.Pairs.right (off + k.val) = i + 1 + k.val; rw [hoff]; exact hrow.2)
  rw [hl, hr]

/-- The last piece — the one pair `(30, 31)`, pair number 495 — is stored without repeating the projected
    field: it too is the specification on its rectangle. -/
theorem last_piece_spec
    (v0 v6 : FVec Ideal ⟨3, ![64, 32, 64]⟩ .f32) (v2 : FVec Ideal ⟨2, ![64, 64]⟩ .bf16)
    (hv6 : ∀ (b : Fin 64) (f : Fin 32) (d : Fin 64), v6 (ix3 b f d) = ∑ e : Fin 64, v0 (ix3 b f e) * v2 (ix2 e d))
    (hs1 : (⟨3, ![64, 32, 64]⟩ : Shape).Slices ![0, 30, 0] ⟨3, ![64, 1, 64]⟩)
    (hs2 : (⟨3, ![64, 32, 64]⟩ : Shape).Slices ![0, 31, 0] ⟨3, ![64, 1, 64]⟩)
    (inb : ∀ a, (![0, 495, 0] : Fin 3 → ℕ) a + (![64, 1, 64] : Fin 3 → ℕ) a ≤ (⟨3, ![64, 496, 64]⟩ : Shape).size a)
    (x : (⟨3, ![64, 1, 64]⟩ : Shape).Idx) :
    mulf (extractStridedSlice ⟨3, ![64, 1, 64]⟩ ![0, 30, 0] v6 hs1) (extractStridedSlice ⟨3, ![64, 1, 64]⟩ ![0, 31, 0] v0 hs2) x
      = pairProd 64 v0 v2 ((Rect.unit (s := ⟨3, ![64, 496, 64]⟩) ![0, 495, 0] ![64, 1, 64] inb).emb x) := by
  obtain ⟨b, k, d, rfl⟩ : ∃ (b : Fin 64) (k : Fin 1) (d : Fin 64), x = ix3 b k d := ⟨x 0, x 1, x 2, eq_ix3 x⟩
  obtain rfl : k = 0 := Subsingleton.elim _ _
  have hrow := row_pairs ⟨30, by decide⟩ ⟨0, by decide⟩
  rw [mulf_apply, piece_emb 1 495 (by decide) inb b 0 d, pairProd_apply, ← hv6]
  have hl : leftF ⟨495 + (0 : Fin 1).val, by decide⟩ = (⟨30, by decide⟩ : Fin 32) := Fin.ext hrow.1
  have hr : rightF ⟨495 + (0 : Fin 1).val, by decide⟩ = (⟨31, by decide⟩ : Fin 32) := Fin.ext hrow.2
  rw [hl, hr]
  congr 1
  · exact extractStridedSlice_apply _ v6 hs1 (ix3 b (0 : Fin 1) d) _ (by
      intro a
      match a with
      | ⟨0, _⟩ => simp [ix3]
      | ⟨1, _⟩ => simp [ix3]
      | ⟨2, _⟩ => simp [ix3])
  · exact extractStridedSlice_apply _ v0 hs2 (ix3 b (0 : Fin 1) d) _ (by
      intro a
      match a with
      | ⟨0, _⟩ => simp [ix3]
      | ⟨1, _⟩ => simp [ix3]
      | ⟨2, _⟩ => simp [ix3])

end Cert.Bilinear

end
-- ==== Proof.KernelBlock.lean ====
/-
  What the kernel's body leaves in its output block.

  The body stores 31 pieces, one per left field i = 0, …, 30: piece i fills the pair numbers
  i (63 - i) / 2, …, i (63 - i) / 2 + 30 - i of the block with the projected field i times the fields
  i + 1, …, 31. The pieces tile the block, and each is the specification restricted to its rectangle, so the
  block as a whole is the specification of the block of 64 rows: `pairProd 64 x w`.
-/
import proofs.«103675_j64793876628087_1_alg».proof.Proof.Gen.KernelIdeal.Frame
import proofs.«103675_j64793876628087_1_alg».proof.Proof.KernelPiece

set_option maxRecDepth 16384

noncomputable section

open scoped BigOperators

namespace Cert.KernelIdeal.Hand

open Cert.KernelIdeal Cert.KernelIdeal.Gen Idealize.ShloMosaic Idealize.ShloMosaic.TcCoe Idealize.ShloMosaic.Tactic
open Idealize.SL Idealize.SL.Sem Idealize.ShloMosaic.ValueIdx

/-- The projected block, as the body computes it, read at `(b, f, d)`. -/
theorem proj_block (x0 : Vec Ideal S64x32x64 .f32) (x1 : Vec Ideal S64x64 .bf16) (b : Fin 64) (f : Fin 32) (d : Fin 64) :
    k0_pay7 x0 x1 (ix3 b f d) = ∑ e : Fin 64, x0 (ix3 b f e) * x1 (ix2 e d) := by
  unfold k0_pay7
  exact Cert.Bilinear.proj_apply x0 x1 _ _ _ _ b f d

/-- The output block after the body: the specification of the block's 64 rows. -/
theorem out_block (c : Dev nD) (i : grid0.Coords) (arg1 : Memref sig .tc .vmem S64x32x64 .f32) (harg1 : arg1.IsWhole)
    (arg2 : Memref sig .tc .vmem S64x64 .bf16) (harg2 : arg2.IsWhole) (arg3 : Memref sig .tc .vmem S64x496x64 .f32)
    (harg3 : arg3.IsWhole) (x0 : Vec Ideal S64x32x64 .f32) (x1 : Vec Ideal S64x64 .bf16) :
    out0_A_2 (F := Ideal) c i arg1 harg1 arg2 harg2 arg3 harg3 x0 x1 = Cert.Bilinear.pairProd 64 x0 x1 := by
  have hz3 : (![0, 0, 0] : Fin 3 → ℕ) = fun _ => 0 := by funext a; fin_cases a <;> rfl
  have hz2 : (![0, 0] : Fin 2 → ℕ) = fun _ => 0 := by funext a; fin_cases a <;> rfl
  have hv6 := proj_block x0 x1
  funext y
  unfold out0_A_2
  rw [View.read_writes_eq_canon _ _ _ (cover0_A_2 c i arg1 harg1 arg2 harg2 arg3 harg3 x0 x1)]
  refine View.canon_apply_of_pieces (Cert.Bilinear.pairProd 64 x0 x1) _ ?_ y
    (cover0_A_2 c i arg1 harg1 arg2 harg2 arg3 harg3 x0 x1 y)
  unfold kernelRun0_A
  dsimp only
  sl_unfold_words
  simp only [View.readAt_eq_ld, harg1.read_unread, harg2.read_unread, View.ld_unit_zero (S := S64x32x64) hz3,
    View.ld_unit_zero (S := S64x64) hz2]
  intro p hp
  simp only [List.mem_cons, List.not_mem_nil, or_false] at hp
  rcases hp with rfl | rfl | rfl | rfl | rfl | rfl | rfl | rfl | rfl | rfl | rfl | rfl | rfl | rfl | rfl | rfl
    | rfl | rfl | rfl | rfl | rfl | rfl | rfl | rfl | rfl | rfl | rfl | rfl | rfl | rfl | rfl
  -- the last piece, the one pair (30, 31), is stored without repeating the projected field
  · intro x
    simp only [k0_pay6]
    exact Cert.Bilinear.last_piece_spec x0 (k0_pay7 x0 x1) x1 hv6 _ _ _ x
  -- every other piece: its left field, its length and its first pair number are read off its text
  all_goals
    intro x
    simp only [k0_pay1, k0_pay2, k0_pay3, k0_pay4, k0_pay5, k0_pay8, k0_pay9, k0_pay10, k0_pay11, k0_pay12, k0_pay13,
      k0_pay14, k0_pay15, k0_pay16, k0_pay17, k0_pay18, k0_pay19, k0_pay20, k0_pay21, k0_pay22, k0_pay23, k0_pay24,
      k0_pay25, k0_pay26, k0_pay27, k0_pay28, k0_pay29, k0_pay30, k0_pay31, k0_pay32, k0_pay33, k0_pay34]
    exact Cert.Bilinear.piece_spec _ _ _ (by decide) (by rfl) (by rfl) x0 (k0_pay7 x0 x1) x1 hv6 _ _ _ _ x

end Cert.KernelIdeal.Hand

end
-- ==== Proof.KernelFinal.lean ====
/-
  From the kernel's blocks to its result array.

  Grid point t takes rows 64 t, …, 64 t + 63 of x (all 32 fields, all 64 lanes) and the whole matrix, and writes
  back rows 64 t, …, 64 t + 63 of the result (all 496 pairs, all 64 lanes). What it writes is the specification of
  its 64 rows (KernelBlock), which is the specification of all 8192 rows restricted to those rows: a row's pairs
  depend on that row alone. The 128 blocks cover the result array, so after the run it holds
  `pairProd 8192 x w`. The matrix the region finds is the second argument after the host's change of float
  format, which is the identity on the ideal values.
-/
import proofs.«103675_j64793876628087_1_alg».proof.Proof.Gen.KernelIdeal.Value
import proofs.«103675_j64793876628087_1_alg».proof.Proof.KernelBlock
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The printed index maps over the 128 grid points: point `t` takes row block `t` of x, the one block of the
    matrix, and row block `t` of the result. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The matrix as the region finds it is the second argument: the host's rounding to the narrower float format
    is the identity on the ideal values. -/
theorem V_w (c : Dev nD) :
    (V m c main_v0 : S64x64.Idx → EReal) = (m ((c : Thread nD τ).loc main_arg1) : S64x64.Idx → EReal) := by
  have e : (V m c main_v0 : S64x64.Idx → Elt Ideal .bf16)
      = truncf (F := Ideal) .bf16 (m ((c : Thread nD τ).loc main_arg1) : S64x64.Idx → Elt Ideal .f32) bitsLt_bf16_f32 := by
    dsimp only [Gen.V, Gen.hostOps0]; after_results
  rw [e]; rfl

/-- The block of x at point `t`: rows `64 t + b`. -/
theorem xblk_apply (c : Dev nD) (t : Fin cfg0.N) (b : Fin 64) (f : Fin 32) (e : Fin 64) :
    (iblk m c 0 t : Vec Ideal S64x32x64 .f32) (ix3 b f e)
      = (V m c main_arg0 : S8192x32x64.Idx → EReal)
          (ix3 (⟨64 * t.val + b.val, by have := t.isLt; have hN : cfg0.N = 128 := N_0; omega⟩ : Fin 8192) f e) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 64 + 1 * b.val = 64 * t.val + b.val; rw [e0]; omega
  | ⟨1, _⟩ => show win0_0.index t (1 : Fin 3) * 32 + 1 * f.val = f.val; rw [e1]; omega
  | ⟨2, _⟩ => show win0_0.index t (2 : Fin 3) * 64 + 1 * e.val = e.val; rw [e2]; omega

/-- The block of the matrix at any point: the whole matrix. -/
theorem wblk_apply (c : Dev nD) (t : Fin cfg0.N) (e d : Fin 64) :
    (iblk m c 1 t : Vec Ideal S64x64 .bf16) (ix2 e d) = (V m c main_v0 : S64x64.Idx → EReal) (ix2 e d) := by
  obtain ⟨-, -, -, e3, e4, -⟩ := idx_facts t
  unfold iblk
  rw [View.read_apply]
  show V m c main_v0 _ = V m c main_v0 _
  congr 1
  funext a
  apply Fin.ext
  match a with
  | ⟨0, _⟩ => show win0_1.index t (0 : Fin 2) * 64 + 1 * e.val = e.val; rw [e3]; omega
  | ⟨1, _⟩ => show win0_1.index t (1 : Fin 2) * 64 + 1 * d.val = d.val; rw [e4]; omega

/-- What point `t` writes back is block `t` of the specification of the whole arrays. -/
theorem flushed_eq (c : Dev nD) (t : Fin cfg0.N) :
    (dats m 0 c).flushed 2 t
      = ((cfg0.win 2).blk t).view.read (Elt Ideal)
          (Cert.Bilinear.pairProd 8192 (V m c main_arg0 : S8192x32x64.Idx → EReal) (V m c main_v0 : S64x64.Idx → EReal)) := by
  rw [Cert.KernelIdeal.Value.flushed2_A, out_block]
  obtain ⟨-, -, -, -, -, e5, e6, e7⟩ := idx_facts t
  funext j
  show Cert.Bilinear.pairProd 64 (iblk m c 0 t) (iblk m c 1 t) j
    = Cert.Bilinear.pairProd 8192 (V m c main_arg0 : S8192x32x64.Idx → EReal) (V m c main_v0 : S64x64.Idx → EReal)
        (((cfg0.win 2).blk t).view.emb j)
  obtain ⟨b, p, d, rfl⟩ : ∃ (b : Fin 64) (p : Fin 496) (d : Fin 64), j = ix3 b p d := ⟨j 0, j 1, j 2, eq_ix3 j⟩
  have hemb : ((cfg0.win 2).blk t).view.emb (ix3 b p d)
      = ix3 (⟨64 * t.val + b.val, by have := t.isLt; have hN : cfg0.N = 128 := N_0; omega⟩ : Fin 8192) p d := by
    funext a
    apply Fin.ext
    match a with
    | ⟨0, _⟩ => show win0_2.index t (0 : Fin 3) * 64 + 1 * b.val = 64 * t.val + b.val; rw [e5]; omega
    | ⟨1, _⟩ => show win0_2.index t (1 : Fin 3) * 496 + 1 * p.val = p.val; rw [e6]; omega
    | ⟨2, _⟩ => show win0_2.index t (2 : Fin 3) * 64 + 1 * d.val = d.val; rw [e7]; omega
  rw [hemb, Cert.Bilinear.pairProd_apply, Cert.Bilinear.pairProd_apply]
  simp only [xblk_apply, wblk_apply]

/-- An index of the result array is in point `t`'s block iff each coordinate is in the block's range. -/
theorem mem_blk (t : Fin cfg0.N) (i : S8192x496x64.Idx) :
    i ∈ ((cfg0.win 2).blk t).view.set ↔ ∀ a : Fin 3,
      win0_2.index t a * S64x496x64.size a ≤ (i a).val ∧ (i a).val < win0_2.index t a * S64x496x64.size a + S64x496x64.size a := by
  show i ∈ ((View.whole main_v1).slice (win0_2.rect t)).set ↔ _
  rw [View.set_slice_whole, Rect.mem_set_unit]
  exact Iff.rfl

/-- The result array after the run: the specification of the two argument arrays. -/
theorem final (c : Dev nD) :
    (dats m 0 c).arrAt 2 cfg0.N
      = Cert.Bilinear.pairProd 8192 (m ((c : Thread nD τ).loc main_arg0) : S8192x32x64.Idx → EReal)
          (m ((c : Thread nD τ).loc main_arg1) : S64x64.Idx → EReal) := by
  have hN : cfg0.N = 128 := N_0
  have h := (dats m 0 c).arrAt_eq_of_cover 2
    (Cert.Bilinear.pairProd 8192 (V m c main_arg0 : S8192x32x64.Idx → EReal) (V m c main_v0 : S64x64.Idx → EReal))
    (fun t _ => flushed_eq m c t) (fun i => by
      have hi0 : (i 0).val < 8192 := (i 0).isLt
      have hi1 : (i 1).val < 496 := (i 1).isLt
      have hi2 : (i 2).val < 64 := (i 2).isLt
      refine ⟨⟨(i 0).val / 64, by omega⟩, flush0_2 _, ?_⟩
      rw [mem_blk]
      obtain ⟨-, -, -, -, -, e5, e6, e7⟩ := idx_facts ⟨(i 0).val / 64, by omega⟩
      intro a
      match a with
      | ⟨0, _⟩ =>
        show win0_2.index _ (0 : Fin 3) * 64 ≤ (i 0).val ∧ (i 0).val < win0_2.index _ (0 : Fin 3) * 64 + 64
        rw [e5]; show (i 0).val / 64 * 64 ≤ (i 0).val ∧ (i 0).val < (i 0).val / 64 * 64 + 64; omega
      | ⟨1, _⟩ =>
        show win0_2.index _ (1 : Fin 3) * 496 ≤ (i 1).val ∧ (i 1).val < win0_2.index _ (1 : Fin 3) * 496 + 496
        rw [e6]; omega
      | ⟨2, _⟩ =>
        show win0_2.index _ (2 : Fin 3) * 64 ≤ (i 2).val ∧ (i 2).val < win0_2.index _ (2 : Fin 3) * 64 + 64
        rw [e7]; omega)
  rw [h, V_w, V_main_arg0]

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v1)
        = Cert.Bilinear.pairProd 8192 (m ((c : Thread nD τ).loc main_arg0) : S8192x32x64.Idx → EReal)
            (m ((c : Thread nD τ).loc main_arg1) : S64x64.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Hand

end
-- ==== Proof.RefRunOps.lean ====
/-
  The reference program's @main as ONE straight line of host operations.

  @main calls eight outlined functions (the triangle mask, the running count of the mask and the clip of
  that count, the running sum of the histogram, and twice each the floor quotient and the floor remainder),
  and four of them call a further one. A call means the callee's body run on the call's own buffers, so with
  every body substituted at its call site @main is a line of 137 operations, one per buffer other than the
  two arguments: 43 of @main's own and 94 from the bodies (9 for the mask, 2 + 3 for the running count, 3 for
  the clip, 3 for the running sum, 15 + 1 for each floor quotient, 20 + 1 for each floor remainder). They
  are listed here in program order, each callee operation over the buffers its call's record names and the
  caller's operands. The run of such a line ends with every buffer at the fold of the operations'
  results over the launch contents.
-/
import proofs.«103675_j64793876628087_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 137 operations in order, the calls' bodies substituted at their call sites. -/
abbrev ops : List (HloOp τ sig (Elt F)) :=
  [ -- the 32 x 32 array of ones
    nullary main_cst (constant S_ .f32 0x3F800000#32),
    unary main_cst main_v0 (broadcastInDim S32x32 ![] bcast_S_S32x32 : (⟨S_, .f32⟩ : BufTy).Contents (Elt F) → (⟨S32x32, .f32⟩ : BufTy).Contents (Elt F)),
    -- the strict upper triangle of it: zero where the row number is at least the column number
    nullary main_call0_v0 (iotaInDim S32x32 32 0),
    nullary main_call0_c (constantI S_ 32 0#32),
    unary main_call0_c main_call0_v1 (broadcastInDim S32x32 ![] bcast_S_S32x32 : (⟨S_, .i32⟩ : BufTy).Contents (Elt F) → (⟨S32x32, .i32⟩ : BufTy).Contents (Elt F)),
    binary main_call0_v0 main_call0_v1 main_call0_v2 (addi : (⟨S32x32, .i32⟩ : BufTy).Contents (Elt F) → (⟨S32x32, .i32⟩ : BufTy).Contents (Elt F) → (⟨S32x32, .i32⟩ : BufTy).Contents (Elt F)),
    nullary main_call0_v3 (iotaInDim S32x32 32 1),
    binary main_call0_v2 main_call0_v3 main_call0_v4 (cmpi .sge : (⟨S32x32, .i32⟩ : BufTy).Contents (Elt F) → (⟨S32x32, .i32⟩ : BufTy).Contents (Elt F) → (⟨S32x32, .i1⟩ : BufTy).Contents (Elt F)),
    nullary main_call0_cst (constant S_ .f32 0x00000000#32),
    unary main_call0_cst main_call0_v5 (broadcastInDim S32x32 ![] bcast_S_S32x32 : (⟨S_, .f32⟩ : BufTy).Contents (Elt F) → (⟨S32x32, .f32⟩ : BufTy).Contents (Elt F)),
    ternary main_call0_v4 main_call0_v5 main_v0 main_v1 (select : (⟨S32x32, .i1⟩ : BufTy).Contents (Elt F) → (⟨S32x32, .f32⟩ : BufTy).Contents (Elt F) → (⟨S32x32, .f32⟩ : BufTy).Contents (Elt F) → (⟨S32x32, .f32⟩ : BufTy).Contents (Elt F)),
    -- the mask: the triangle compared with zero
    nullary main_cst_0 (constant S_ .f32 0x00000000#32),
    unary main_cst_0 main_v2 (broadcastInDim S32x32 ![] bcast_S_S32x32 : (⟨S_, .f32⟩ : BufTy).Contents (Elt F) → (⟨S32x32, .f32⟩ : BufTy).Contents (Elt F)),
    binary main_v1 main_v2 main_v3 (cmpf .une : (⟨S32x32, .f32⟩ : BufTy).Contents (Elt F) → (⟨S32x32, .f32⟩ : BufTy).Contents (Elt F) → (⟨S32x32, .i1⟩ : BufTy).Contents (Elt F)),
    -- its running count over the 1024 flattened positions
    reshape main_v3 main_call1_v0 rfl shapeCasts_S32x32_S1024,
    unary main_call1_v0 main_call1_v1 (fun x => extui 32 x natLt_1_32 : (⟨S1024, .i1⟩ : BufTy).Contents (Elt F) → (⟨S1024, .i32⟩ : BufTy).Contents (Elt F)),
    nullary main_call1_call0_c (constantI S_ 32 0#32),
    unary main_call1_call0_c main_call1_call0_v0 (broadcastInDim S_ ![] bcast_S_S_ : (⟨S_, .i32⟩ : BufTy).Contents (Elt F) → (⟨S_, .i32⟩ : BufTy).Contents (Elt F)),
    binary main_call1_v1 main_call1_call0_v0 main_v4 (fun x v => Host.reduceWindow IntOp.addi ![1024] ![1] ![1023] ![0] x v reduceWindows_S1024_S1024_w1024s1p1023_0 h_S_ : (⟨S1024, .i32⟩ : BufTy).Contents (Elt F) → (⟨S_, .i32⟩ : BufTy).Contents (Elt F) → (⟨S1024, .i32⟩ : BufTy).Contents (Elt F)),
    -- the empty histogram, and the count clipped below at zero
    nullary main_c (constantI S_ 32 0#32),
    unary main_c main_v5 (broadcastInDim S496 ![] bcast_S_S496 : (⟨S_, .i32⟩ : BufTy).Contents (Elt F) → (⟨S496, .i32⟩ : BufTy).Contents (Elt F)),
    nullary main_c_1 (constantI S_ 32 0#32),
    unary main_c_1 main_call2_v0 (id : (⟨S_, .i32⟩ : BufTy).Contents (Elt F) → (⟨S_, .i32⟩ : BufTy).Contents (Elt F)),
    unary main_call2_v0 main_call2_v1 (broadcastInDim S1024 ![] bcast_S_S1024 : (⟨S_, .i32⟩ : BufTy).Contents (Elt F) → (⟨S1024, .i32⟩ : BufTy).Contents (Elt F)),
    binary main_call2_v1 main_v4 main_v6 (maxsi : (⟨S1024, .i32⟩ : BufTy).Contents (Elt F) → (⟨S1024, .i32⟩ : BufTy).Contents (Elt F) → (⟨S1024, .i32⟩ : BufTy).Contents (Elt F)),
    -- the histogram's cell numbers (a negative one wrapped by 496), as a column
    nullary main_c_2 (constantI S_ 32 0#32),
    unary main_c_2 main_v7 (broadcastInDim S1024 ![] bcast_S_S1024 : (⟨S_, .i32⟩ : BufTy).Contents (Elt F) → (⟨S1024, .i32⟩ : BufTy).Contents (Elt F)),
    binary main_v6 main_v7 main_v8 (cmpi .slt : (⟨S1024, .i32⟩ : BufTy).Contents (Elt F) → (⟨S1024, .i32⟩ : BufTy).Contents (Elt F) → (⟨S1024, .i1⟩ : BufTy).Contents (Elt F)),
    nullary main_c_3 (constantI S_ 32 496#32),
    unary main_c_3 main_v9 (broadcastInDim S1024 ![] bcast_S_S1024 : (⟨S_, .i32⟩ : BufTy).Contents (Elt F) → (⟨S1024, .i32⟩ : BufTy).Contents (Elt F)),
    binary main_v6 main_v9 main_v10 (addi : (⟨S1024, .i32⟩ : BufTy).Contents (Elt F) → (⟨S1024, .i32⟩ : BufTy).Contents (Elt F) → (⟨S1024, .i32⟩ : BufTy).Contents (Elt F)),
    ternary main_v8 main_v10 main_v6 main_v11 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v11 main_v12 (broadcastInDim S1024x1 ![0] bcast_S1024_S1024x1_0 : (⟨S1024, .i32⟩ : BufTy).Contents (Elt F) → (⟨S1024x1, .i32⟩ : BufTy).Contents (Elt F)),
    -- one added to each position's cell
    nullary main_c_4 (constantI S_ 32 1#32),
    unary main_c_4 main_v13 (broadcastInDim S1024 ![] bcast_S_S1024 : (⟨S_, .i32⟩ : BufTy).Contents (Elt F) → (⟨S1024, .i32⟩ : BufTy).Contents (Elt F)),
    ternary main_v5 main_v12 main_v13 main_v14 ((fun x i u => Host.scatter scatter_S496_S1024x1_S1024_n_0_0_1 IntOp.addi x i u) : (⟨S496, .i32⟩ : BufTy).Contents (Elt F) → (⟨S1024x1, .i32⟩ : BufTy).Contents (Elt F) → (⟨S1024, .i32⟩ : BufTy).Contents (Elt F) → (⟨S496, .i32⟩ : BufTy).Contents (Elt F)),
    -- the histogram's running sum
    nullary main_call3_call0_c (constantI S_ 32 0#32),
    unary main_call3_call0_c main_call3_call0_v0 (broadcastInDim S_ ![] bcast_S_S_ : (⟨S_, .i32⟩ : BufTy).Contents (Elt F) → (⟨S_, .i32⟩ : BufTy).Contents (Elt F)),
    binary main_v14 main_call3_call0_v0 main_v15 (fun x v => Host.reduceWindow IntOp.addi ![496] ![1] ![495] ![0] x v reduceWindows_S496_S496_w496s1p495_0 h_S_ : (⟨S496, .i32⟩ : BufTy).Contents (Elt F) → (⟨S_, .i32⟩ : BufTy).Contents (Elt F) → (⟨S496, .i32⟩ : BufTy).Contents (Elt F)),
    -- its floor quotient by 32
    nullary main_c_5 (constantI S_ 32 32#32),
    unary main_c_5 main_call4_v0 (broadcastInDim S496 ![] bcast_S_S496 : (⟨S_, .i32⟩ : BufTy).Contents (Elt F) → (⟨S496, .i32⟩ : BufTy).Contents (Elt F)),
    binary main_v15 main_call4_v0 main_call4_v1 (Host.divsi : (⟨S496, .i32⟩ : BufTy).Contents (Elt F) → (⟨S496, .i32⟩ : BufTy).Contents (Elt F) → (⟨S496, .i32⟩ : BufTy).Contents (Elt F)),
    unary main_v15 main_call4_v2 (signi : (⟨S496, .i32⟩ : BufTy).Contents (Elt F) → (⟨S496, .i32⟩ : BufTy).Contents (Elt F)),
    unary main_c_5 main_call4_v3 (signi : (⟨S_, .i32⟩ : BufTy).Contents (Elt F) → (⟨S_, .i32⟩ : BufTy).Contents (Elt F)),
    unary main_call4_v3 main_call4_v4 (broadcastInDim S496 ![] bcast_S_S496 : (⟨S_, .i32⟩ : BufTy).Contents (Elt F) → (⟨S496, .i32⟩ : BufTy).Contents (Elt F)),
    binary main_call4_v2 main_call4_v4 main_call4_v5 (cmpi .ne : (⟨S496, .i32⟩ : BufTy).Contents (Elt F) → (⟨S496, .i32⟩ : BufTy).Contents (Elt F) → (⟨S496, .i1⟩ : BufTy).Contents (Elt F)),
    unary main_c_5 main_call4_v6 (broadcastInDim S496 ![] bcast_S_S496 : (⟨S_, .i32⟩ : BufTy).Contents (Elt F) → (⟨S496, .i32⟩ : BufTy).Contents (Elt F)),
    binary main_v15 main_call4_v6 main_call4_v7 (Host.remsi : (⟨S496, .i32⟩ : BufTy).Contents (Elt F) → (⟨S496, .i32⟩ : BufTy).Contents (Elt F) → (⟨S496, .i32⟩ : BufTy).Contents (Elt F)),
    nullary main_call4_c (constantI S_ 32 0#32),
    unary main_call4_c main_call4_v8 (broadcastInDim S496 ![] bcast_S_S496 : (⟨S_, .i32⟩ : BufTy).Contents (Elt F) → (⟨S496, .i32⟩ : BufTy).Contents (Elt F)),
    binary main_call4_v7 main_call4_v8 main_call4_v9 (cmpi .ne : (⟨S496, .i32⟩ : BufTy).Contents (Elt F) → (⟨S496, .i32⟩ : BufTy).Contents (Elt F) → (⟨S496, .i1⟩ : BufTy).Contents (Elt F)),
    binary main_call4_v5 main_call4_v9 main_call4_v10 (andi : (⟨S496, .i1⟩ : BufTy).Contents (Elt F) → (⟨S496, .i1⟩ : BufTy).Contents (Elt F) → (⟨S496, .i1⟩ : BufTy).Contents (Elt F)),
    nullary main_call4_c_0 (constantI S_ 32 1#32),
    unary main_call4_c_0 main_call4_v11 (broadcastInDim S496 ![] bcast_S_S496 : (⟨S_, .i32⟩ : BufTy).Contents (Elt F) → (⟨S496, .i32⟩ : BufTy).Contents (Elt F)),
    binary main_call4_v1 main_call4_v11 main_call4_v12 (subi : (⟨S496, .i32⟩ : BufTy).Contents (Elt F) → (⟨S496, .i32⟩ : BufTy).Contents (Elt F) → (⟨S496, .i32⟩ : BufTy).Contents (Elt F)),
    ternary main_call4_v10 main_call4_v12 main_call4_v1 main_v16 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    -- the floor remainder of that by 32
    nullary main_c_6 (constantI S_ 32 32#32),
    unary main_c_6 main_call5_v0 (id : (⟨S_, .i32⟩ : BufTy).Contents (Elt F) → (⟨S_, .i32⟩ : BufTy).Contents (Elt F)),
    nullary main_call5_c (constantI S_ 32 0#32),
    binary main_call5_v0 main_call5_c main_call5_v1 (cmpi .eq : (⟨S_, .i32⟩ : BufTy).Contents (Elt F) → (⟨S_, .i32⟩ : BufTy).Contents (Elt F) → (⟨S_, .i1⟩ : BufTy).Contents (Elt F)),
    nullary main_call5_c_0 (constantI S_ 32 1#32),
    ternary main_call5_v1 main_call5_c_0 main_call5_v0 main_call5_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call5_v2 main_call5_v3 (broadcastInDim S496 ![] bcast_S_S496 : (⟨S_, .i32⟩ : BufTy).Contents (Elt F) → (⟨S496, .i32⟩ : BufTy).Contents (Elt F)),
    binary main_v16 main_call5_v3 main_call5_v4 (Host.remsi : (⟨S496, .i32⟩ : BufTy).Contents (Elt F) → (⟨S496, .i32⟩ : BufTy).Contents (Elt F) → (⟨S496, .i32⟩ : BufTy).Contents (Elt F)),
    nullary main_call5_c_1 (constantI S_ 32 0#32),
    unary main_call5_c_1 main_call5_v5 (broadcastInDim S496 ![] bcast_S_S496 : (⟨S_, .i32⟩ : BufTy).Contents (Elt F) → (⟨S496, .i32⟩ : BufTy).Contents (Elt F)),
    binary main_call5_v4 main_call5_v5 main_call5_v6 (cmpi .ne : (⟨S496, .i32⟩ : BufTy).Contents (Elt F) → (⟨S496, .i32⟩ : BufTy).Contents (Elt F) → (⟨S496, .i1⟩ : BufTy).Contents (Elt F)),
    nullary main_call5_c_2 (constantI S_ 32 0#32),
    unary main_call5_c_2 main_call5_v7 (broadcastInDim S496 ![] bcast_S_S496 : (⟨S_, .i32⟩ : BufTy).Contents (Elt F) → (⟨S496, .i32⟩ : BufTy).Contents (Elt F)),
    binary main_call5_v4 main_call5_v7 main_call5_v8 (cmpi .slt : (⟨S496, .i32⟩ : BufTy).Contents (Elt F) → (⟨S496, .i32⟩ : BufTy).Contents (Elt F) → (⟨S496, .i1⟩ : BufTy).Contents (Elt F)),
    nullary main_call5_c_3 (constantI S_ 32 0#32),
    binary main_call5_v2 main_call5_c_3 main_call5_v9 (cmpi .slt : (⟨S_, .i32⟩ : BufTy).Contents (Elt F) → (⟨S_, .i32⟩ : BufTy).Contents (Elt F) → (⟨S_, .i1⟩ : BufTy).Contents (Elt F)),
    unary main_call5_v9 main_call5_v10 (broadcastInDim S496 ![] bcast_S_S496 : (⟨S_, .i1⟩ : BufTy).Contents (Elt F) → (⟨S496, .i1⟩ : BufTy).Contents (Elt F)),
    binary main_call5_v8 main_call5_v10 main_call5_v11 (cmpi .ne : (⟨S496, .i1⟩ : BufTy).Contents (Elt F) → (⟨S496, .i1⟩ : BufTy).Contents (Elt F) → (⟨S496, .i1⟩ : BufTy).Contents (Elt F)),
    binary main_call5_v11 main_call5_v6 main_call5_v12 (andi : (⟨S496, .i1⟩ : BufTy).Contents (Elt F) → (⟨S496, .i1⟩ : BufTy).Contents (Elt F) → (⟨S496, .i1⟩ : BufTy).Contents (Elt F)),
    unary main_call5_v2 main_call5_v13 (broadcastInDim S496 ![] bcast_S_S496 : (⟨S_, .i32⟩ : BufTy).Contents (Elt F) → (⟨S496, .i32⟩ : BufTy).Contents (Elt F)),
    binary main_call5_v4 main_call5_v13 main_call5_v14 (addi : (⟨S496, .i32⟩ : BufTy).Contents (Elt F) → (⟨S496, .i32⟩ : BufTy).Contents (Elt F) → (⟨S496, .i32⟩ : BufTy).Contents (Elt F)),
    ternary main_call5_v12 main_call5_v14 main_call5_v4 main_v17 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    -- the running sum's floor quotient by 1
    nullary main_c_7 (constantI S_ 32 1#32),
    unary main_c_7 main_call6_v0 (broadcastInDim S496 ![] bcast_S_S496 : (⟨S_, .i32⟩ : BufTy).Contents (Elt F) → (⟨S496, .i32⟩ : BufTy).Contents (Elt F)),
    binary main_v15 main_call6_v0 main_call6_v1 (Host.divsi : (⟨S496, .i32⟩ : BufTy).Contents (Elt F) → (⟨S496, .i32⟩ : BufTy).Contents (Elt F) → (⟨S496, .i32⟩ : BufTy).Contents (Elt F)),
    unary main_v15 main_call6_v2 (signi : (⟨S496, .i32⟩ : BufTy).Contents (Elt F) → (⟨S496, .i32⟩ : BufTy).Contents (Elt F)),
    unary main_c_7 main_call6_v3 (signi : (⟨S_, .i32⟩ : BufTy).Contents (Elt F) → (⟨S_, .i32⟩ : BufTy).Contents (Elt F)),
    unary main_call6_v3 main_call6_v4 (broadcastInDim S496 ![] bcast_S_S496 : (⟨S_, .i32⟩ : BufTy).Contents (Elt F) → (⟨S496, .i32⟩ : BufTy).Contents (Elt F)),
    binary main_call6_v2 main_call6_v4 main_call6_v5 (cmpi .ne : (⟨S496, .i32⟩ : BufTy).Contents (Elt F) → (⟨S496, .i32⟩ : BufTy).Contents (Elt F) → (⟨S496, .i1⟩ : BufTy).Contents (Elt F)),
    unary main_c_7 main_call6_v6 (broadcastInDim S496 ![] bcast_S_S496 : (⟨S_, .i32⟩ : BufTy).Contents (Elt F) → (⟨S496, .i32⟩ : BufTy).Contents (Elt F)),
    binary main_v15 main_call6_v6 main_call6_v7 (Host.remsi : (⟨S496, .i32⟩ : BufTy).Contents (Elt F) → (⟨S496, .i32⟩ : BufTy).Contents (Elt F) → (⟨S496, .i32⟩ : BufTy).Contents (Elt F)),
    nullary main_call6_c (constantI S_ 32 0#32),
    unary main_call6_c main_call6_v8 (broadcastInDim S496 ![] bcast_S_S496 : (⟨S_, .i32⟩ : BufTy).Contents (Elt F) → (⟨S496, .i32⟩ : BufTy).Contents (Elt F)),
    binary main_call6_v7 main_call6_v8 main_call6_v9 (cmpi .ne : (⟨S496, .i32⟩ : BufTy).Contents (Elt F) → (⟨S496, .i32⟩ : BufTy).Contents (Elt F) → (⟨S496, .i1⟩ : BufTy).Contents (Elt F)),
    binary main_call6_v5 main_call6_v9 main_call6_v10 (andi : (⟨S496, .i1⟩ : BufTy).Contents (Elt F) → (⟨S496, .i1⟩ : BufTy).Contents (Elt F) → (⟨S496, .i1⟩ : BufTy).Contents (Elt F)),
    nullary main_call6_c_0 (constantI S_ 32 1#32),
    unary main_call6_c_0 main_call6_v11 (broadcastInDim S496 ![] bcast_S_S496 : (⟨S_, .i32⟩ : BufTy).Contents (Elt F) → (⟨S496, .i32⟩ : BufTy).Contents (Elt F)),
    binary main_call6_v1 main_call6_v11 main_call6_v12 (subi : (⟨S496, .i32⟩ : BufTy).Contents (Elt F) → (⟨S496, .i32⟩ : BufTy).Contents (Elt F) → (⟨S496, .i32⟩ : BufTy).Contents (Elt F)),
    ternary main_call6_v10 main_call6_v12 main_call6_v1 main_v18 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    -- the floor remainder of that by 32
    nullary main_c_8 (constantI S_ 32 32#32),
    unary main_c_8 main_call7_v0 (id : (⟨S_, .i32⟩ : BufTy).Contents (Elt F) → (⟨S_, .i32⟩ : BufTy).Contents (Elt F)),
    nullary main_call7_c (constantI S_ 32 0#32),
    binary main_call7_v0 main_call7_c main_call7_v1 (cmpi .eq : (⟨S_, .i32⟩ : BufTy).Contents (Elt F) → (⟨S_, .i32⟩ : BufTy).Contents (Elt F) → (⟨S_, .i1⟩ : BufTy).Contents (Elt F)),
    nullary main_call7_c_0 (constantI S_ 32 1#32),
    ternary main_call7_v1 main_call7_c_0 main_call7_v0 main_call7_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call7_v2 main_call7_v3 (broadcastInDim S496 ![] bcast_S_S496 : (⟨S_, .i32⟩ : BufTy).Contents (Elt F) → (⟨S496, .i32⟩ : BufTy).Contents (Elt F)),
    binary main_v18 main_call7_v3 main_call7_v4 (Host.remsi : (⟨S496, .i32⟩ : BufTy).Contents (Elt F) → (⟨S496, .i32⟩ : BufTy).Contents (Elt F) → (⟨S496, .i32⟩ : BufTy).Contents (Elt F)),
    nullary main_call7_c_1 (constantI S_ 32 0#32),
    unary main_call7_c_1 main_call7_v5 (broadcastInDim S496 ![] bcast_S_S496 : (⟨S_, .i32⟩ : BufTy).Contents (Elt F) → (⟨S496, .i32⟩ : BufTy).Contents (Elt F)),
    binary main_call7_v4 main_call7_v5 main_call7_v6 (cmpi .ne : (⟨S496, .i32⟩ : BufTy).Contents (Elt F) → (⟨S496, .i32⟩ : BufTy).Contents (Elt F) → (⟨S496, .i1⟩ : BufTy).Contents (Elt F)),
    nullary main_call7_c_2 (constantI S_ 32 0#32),
    unary main_call7_c_2 main_call7_v7 (broadcastInDim S496 ![] bcast_S_S496 : (⟨S_, .i32⟩ : BufTy).Contents (Elt F) → (⟨S496, .i32⟩ : BufTy).Contents (Elt F)),
    binary main_call7_v4 main_call7_v7 main_call7_v8 (cmpi .slt : (⟨S496, .i32⟩ : BufTy).Contents (Elt F) → (⟨S496, .i32⟩ : BufTy).Contents (Elt F) → (⟨S496, .i1⟩ : BufTy).Contents (Elt F)),
    nullary main_call7_c_3 (constantI S_ 32 0#32),
    binary main_call7_v2 main_call7_c_3 main_call7_v9 (cmpi .slt : (⟨S_, .i32⟩ : BufTy).Contents (Elt F) → (⟨S_, .i32⟩ : BufTy).Contents (Elt F) → (⟨S_, .i1⟩ : BufTy).Contents (Elt F)),
    unary main_call7_v9 main_call7_v10 (broadcastInDim S496 ![] bcast_S_S496 : (⟨S_, .i1⟩ : BufTy).Contents (Elt F) → (⟨S496, .i1⟩ : BufTy).Contents (Elt F)),
    binary main_call7_v8 main_call7_v10 main_call7_v11 (cmpi .ne : (⟨S496, .i1⟩ : BufTy).Contents (Elt F) → (⟨S496, .i1⟩ : BufTy).Contents (Elt F) → (⟨S496, .i1⟩ : BufTy).Contents (Elt F)),
    binary main_call7_v11 main_call7_v6 main_call7_v12 (andi : (⟨S496, .i1⟩ : BufTy).Contents (Elt F) → (⟨S496, .i1⟩ : BufTy).Contents (Elt F) → (⟨S496, .i1⟩ : BufTy).Contents (Elt F)),
    unary main_call7_v2 main_call7_v13 (broadcastInDim S496 ![] bcast_S_S496 : (⟨S_, .i32⟩ : BufTy).Contents (Elt F) → (⟨S496, .i32⟩ : BufTy).Contents (Elt F)),
    binary main_call7_v4 main_call7_v13 main_call7_v14 (addi : (⟨S496, .i32⟩ : BufTy).Contents (Elt F) → (⟨S496, .i32⟩ : BufTy).Contents (Elt F) → (⟨S496, .i32⟩ : BufTy).Contents (Elt F)),
    ternary main_call7_v12 main_call7_v14 main_call7_v4 main_v19 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    -- x * W
    binary main_arg0 main_arg1 main_v20 ((fun l r => Host.dotGeneral dot_S8192x32x64_S64x64_S8192x32x64_2_0_01_1_n_n none l r) : (⟨S8192x32x64, .f32⟩ : BufTy).Contents (Elt F) → (⟨S64x64, .f32⟩ : BufTy).Contents (Elt F) → (⟨S8192x32x64, .f32⟩ : BufTy).Contents (Elt F)),
    -- its rows at the left fields (a negative field number wrapped by 32)
    nullary main_c_9 (constantI S_ 32 0#32),
    unary main_c_9 main_v21 (broadcastInDim S496 ![] bcast_S_S496 : (⟨S_, .i32⟩ : BufTy).Contents (Elt F) → (⟨S496, .i32⟩ : BufTy).Contents (Elt F)),
    binary main_v17 main_v21 main_v22 (cmpi .slt : (⟨S496, .i32⟩ : BufTy).Contents (Elt F) → (⟨S496, .i32⟩ : BufTy).Contents (Elt F) → (⟨S496, .i1⟩ : BufTy).Contents (Elt F)),
    nullary main_c_10 (constantI S_ 32 32#32),
    unary main_c_10 main_v23 (broadcastInDim S496 ![] bcast_S_S496 : (⟨S_, .i32⟩ : BufTy).Contents (Elt F) → (⟨S496, .i32⟩ : BufTy).Contents (Elt F)),
    binary main_v17 main_v23 main_v24 (addi : (⟨S496, .i32⟩ : BufTy).Contents (Elt F) → (⟨S496, .i32⟩ : BufTy).Contents (Elt F) → (⟨S496, .i32⟩ : BufTy).Contents (Elt F)),
    ternary main_v22 main_v24 main_v17 main_v25 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v25 main_v26 (broadcastInDim S496x1 ![0] bcast_S496_S496x1_0 : (⟨S496, .i32⟩ : BufTy).Contents (Elt F) → (⟨S496x1, .i32⟩ : BufTy).Contents (Elt F)),
    binary main_v20 main_v26 main_v27 ((fun x i => Host.gather gather_S8192x32x64_S496x1_S8192x496x64_02_1_n_n_1_1_8192164 x i) : (⟨S8192x32x64, .f32⟩ : BufTy).Contents (Elt F) → (⟨S496x1, .i32⟩ : BufTy).Contents (Elt F) → (⟨S8192x496x64, .f32⟩ : BufTy).Contents (Elt F)),
    -- x's rows at the right fields
    nullary main_c_11 (constantI S_ 32 0#32),
    unary main_c_11 main_v28 (broadcastInDim S496 ![] bcast_S_S496 : (⟨S_, .i32⟩ : BufTy).Contents (Elt F) → (⟨S496, .i32⟩ : BufTy).Contents (Elt F)),
    binary main_v19 main_v28 main_v29 (cmpi .slt : (⟨S496, .i32⟩ : BufTy).Contents (Elt F) → (⟨S496, .i32⟩ : BufTy).Contents (Elt F) → (⟨S496, .i1⟩ : BufTy).Contents (Elt F)),
    nullary main_c_12 (constantI S_ 32 32#32),
    unary main_c_12 main_v30 (broadcastInDim S496 ![] bcast_S_S496 : (⟨S_, .i32⟩ : BufTy).Contents (Elt F) → (⟨S496, .i32⟩ : BufTy).Contents (Elt F)),
    binary main_v19 main_v30 main_v31 (addi : (⟨S496, .i32⟩ : BufTy).Contents (Elt F) → (⟨S496, .i32⟩ : BufTy).Contents (Elt F) → (⟨S496, .i32⟩ : BufTy).Contents (Elt F)),
    ternary main_v29 main_v31 main_v19 main_v32 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v32 main_v33 (broadcastInDim S496x1 ![0] bcast_S496_S496x1_0 : (⟨S496, .i32⟩ : BufTy).Contents (Elt F) → (⟨S496x1, .i32⟩ : BufTy).Contents (Elt F)),
    binary main_arg0 main_v33 main_v34 ((fun x i => Host.gather gather_S8192x32x64_S496x1_S8192x496x64_02_1_n_n_1_1_8192164 x i) : (⟨S8192x32x64, .f32⟩ : BufTy).Contents (Elt F) → (⟨S496x1, .i32⟩ : BufTy).Contents (Elt F) → (⟨S8192x496x64, .f32⟩ : BufTy).Contents (Elt F)),
    -- the product
    binary main_v27 main_v34 main_v35 (mulf : (⟨S8192x496x64, .f32⟩ : BufTy).Contents (Elt F) → (⟨S8192x496x64, .f32⟩ : BufTy).Contents (Elt F) → (⟨S8192x496x64, .f32⟩ : BufTy).Contents (Elt F)) ]

-- 137 binds re-associated: the rewrite under the chain recurses once per statement; the window reduction, the
-- scatter and the gather stay folded while the two spellings of an operation are compared
attribute [local irreducible] Host.reduceWindow Host.scatter Host.gather in
set_option maxRecDepth 8192 in
/-- @main is that straight line: with the functions' definitions substituted at their calls and the calls'
    records read at their fields, both sides are one chain of operation steps once sequencing is
    re-associated; a callee's operation over typed references is the same operation over the buffers, its
    function moved along the identity between a buffer's type and the value's. -/
theorem main_eq (c : Dev nD) : main (F := F) c = seq ops := by
  simp only [main, fn_triu.body, fn_cumsum.body, fn_cumsum_0.body, fn_clip.body, fn_cumsum_1.body, fn_cumsum_2.body,
    fn_floor_divide.body, fn_where.body, fn_remainder.body, fn_where_3.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨-- the ones
    nullary_bufs_sub .., unary_bufs_sub ..,
    -- the triangle
    nullary_bufs_sub .., nullary_bufs_sub .., unary_bufs_sub .., binary_bufs_sub .., nullary_bufs_sub .., binary_bufs_sub ..,
    nullary_bufs_sub .., unary_bufs_sub .., ternary_bufs_sub ..,
    -- the mask
    nullary_bufs_sub .., unary_bufs_sub .., binary_bufs_sub ..,
    -- the running count
    reshape_bufs_sub .., unary_bufs_sub .., nullary_bufs_sub .., unary_bufs_sub .., binary_bufs_sub ..,
    -- the empty histogram and the clip
    nullary_bufs_sub .., unary_bufs_sub .., nullary_bufs_sub .., unary_bufs_sub .., unary_bufs_sub .., binary_bufs_sub ..,
    -- the cell numbers
    nullary_bufs_sub .., unary_bufs_sub .., binary_bufs_sub .., nullary_bufs_sub .., unary_bufs_sub .., binary_bufs_sub ..,
    ternary_bufs_sub .., unary_bufs_sub ..,
    -- the histogram
    nullary_bufs_sub .., unary_bufs_sub .., ternary_bufs_sub ..,
    -- its running sum
    nullary_bufs_sub .., unary_bufs_sub .., binary_bufs_sub ..,
    -- the floor quotient by 32
    nullary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub ..,
    -- the floor remainder by 32
    nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    -- the floor quotient by 1
    nullary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub ..,
    -- the floor remainder by 32
    nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    -- the product's two factors and the product
    binary_bufs_sub ..,
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    binary_bufs_sub ..⟩

/-- At the compiled mesh, for any float values, from any memory with zero counters: every weakly fair execution
    of @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefTerm.lean ====
/-
  The reference's result as ONE closed term of its two argument arrays.

  The reference enumerates the pairs i < j of 32 fields at run time: the strict upper triangle of a 32 x 32
  array of ones is compared with zero (a mask over the 1024 flattened positions), the mask's running count
  `count` is taken, every position k adds one to cell `count k` of a 496-cell histogram (a position whose
  count is 496 falls outside and is dropped), and the histogram's running sum `flat` is then, at pair number
  p, the number of positions whose count is at most p: the flattened position of the (p+1)-th pair. Its
  quotient and remainder by 32 are the pair's left field and right field; the result is the left field's
  row of x * W times the right field's row of x.
-/
import proofs.«103675_j64793876628087_1_alg».proof.ReferenceIdeal

noncomputable section

namespace Cert.ReferenceIdeal.Hand

open Cert.ReferenceIdeal Idealize.ShloMosaic
open Cert.ReferenceIdeal.Facts₀ Cert.ReferenceIdeal.Facts

variable {F : FTy → Type} [FloatOps F] [Cert.ReferenceIdeal.Facts]

abbrev I496 := (⟨S496, .i32⟩ : BufTy).Contents (Elt F)
abbrev I0 := (⟨S_, .i32⟩ : BufTy).Contents (Elt F)

/-- The scalar integer constant `v`. -/
def kI (v : BitVec 32) : I0 (F := F) := constantI S_ 32 v

/-- The strict upper triangle as a mask: ones where the row number is below the column number, compared
    with zero. -/
def mask : (⟨S32x32, .i1⟩ : BufTy).Contents (Elt F) :=
  cmpf .une
    (select
      (cmpi .sge (addi (iotaInDim S32x32 32 0) (broadcastInDim S32x32 ![] bcast_S_S32x32 (kI (F := F) 0#32))) (iotaInDim S32x32 32 1))
      (broadcastInDim S32x32 ![] bcast_S_S32x32 (constant (F := F) S_ .f32 0x00000000#32))
      (broadcastInDim S32x32 ![] bcast_S_S32x32 (constant (F := F) S_ .f32 0x3F800000#32)))
    (broadcastInDim S32x32 ![] bcast_S_S32x32 (constant (F := F) S_ .f32 0x00000000#32))

/-- The mask flattened, as integers. -/
def maskFlat : (⟨S1024, .i32⟩ : BufTy).Contents (Elt F) :=
  extui 32 (shapeCast S1024 (mask (F := F)) shapeCasts_S32x32_S1024) natLt_1_32

/-- The running count of the mask: at position k, the number of mask positions up to and including k. -/
def count : (⟨S1024, .i32⟩ : BufTy).Contents (Elt F) :=
  Host.reduceWindow IntOp.addi ![1024] ![1] ![1023] ![0] (maskFlat (F := F))
    (broadcastInDim S_ ![] bcast_S_S_ (kI (F := F) 0#32)) reduceWindows_S1024_S1024_w1024s1p1023_0 h_S_

/-- The count clipped below at zero. -/
def countClipped : (⟨S1024, .i32⟩ : BufTy).Contents (Elt F) :=
  maxsi (broadcastInDim S1024 ![] bcast_S_S1024 (id (kI (F := F) 0#32))) (count (F := F))

/-- The histogram's cell numbers: a negative count would be wrapped by 496 (none is). -/
def cell : (⟨S1024x1, .i32⟩ : BufTy).Contents (Elt F) :=
  broadcastInDim S1024x1 ![0] bcast_S1024_S1024x1_0
    (select (cmpi .slt (countClipped (F := F)) (broadcastInDim S1024 ![] bcast_S_S1024 (kI (F := F) 0#32)))
      (addi (countClipped (F := F)) (broadcastInDim S1024 ![] bcast_S_S1024 (kI (F := F) 496#32)))
      (countClipped (F := F)))

/-- The histogram: cell v counts the positions whose running count is v. -/
def hist : I496 (F := F) :=
  Host.scatter scatter_S496_S1024x1_S1024_n_0_0_1 IntOp.addi
    (broadcastInDim S496 ![] bcast_S_S496 (kI (F := F) 0#32)) (cell (F := F))
    (broadcastInDim S1024 ![] bcast_S_S1024 (kI (F := F) 1#32))

/-- The histogram's running sum: at pair number p, the flattened position of the (p+1)-th pair. -/
def flat : I496 (F := F) :=
  Host.reduceWindow IntOp.addi ![496] ![1] ![495] ![0] (hist (F := F))
    (broadcastInDim S_ ![] bcast_S_S_ (kI (F := F) 0#32)) reduceWindows_S496_S496_w496s1p495_0 h_S_

/-- The floor quotient as the reference spells it: the truncated quotient, less one where the signs differ
    and the remainder is not zero. -/
def floorDiv (a : I496 (F := F)) (b : I0 (F := F)) : I496 (F := F) :=
  select
    (andi (cmpi .ne (signi a) (broadcastInDim S496 ![] bcast_S_S496 (signi b)))
      (cmpi .ne (Host.remsi a (broadcastInDim S496 ![] bcast_S_S496 b)) (broadcastInDim S496 ![] bcast_S_S496 (kI (F := F) 0#32))))
    (subi (Host.divsi a (broadcastInDim S496 ![] bcast_S_S496 b)) (broadcastInDim S496 ![] bcast_S_S496 (kI (F := F) 1#32)))
    (Host.divsi a (broadcastInDim S496 ![] bcast_S_S496 b))

/-- The divisor the remainder uses: one in place of zero. -/
def safeDivisor (b : I0 (F := F)) : I0 (F := F) :=
  select (cmpi .eq (id b) (kI (F := F) 0#32)) (kI (F := F) 1#32) (id b)

/-- The floor remainder as the reference spells it: the truncated remainder, plus the divisor where it is
    not zero and its sign differs from the divisor's. -/
def floorRem (a : I496 (F := F)) (b : I0 (F := F)) : I496 (F := F) :=
  select
    (andi
      (cmpi .ne
        (cmpi .slt (Host.remsi a (broadcastInDim S496 ![] bcast_S_S496 (safeDivisor b))) (broadcastInDim S496 ![] bcast_S_S496 (kI (F := F) 0#32)))
        (broadcastInDim S496 ![] bcast_S_S496 (cmpi .slt (safeDivisor b) (kI (F := F) 0#32))))
      (cmpi .ne (Host.remsi a (broadcastInDim S496 ![] bcast_S_S496 (safeDivisor b))) (broadcastInDim S496 ![] bcast_S_S496 (kI (F := F) 0#32))))
    (addi (Host.remsi a (broadcastInDim S496 ![] bcast_S_S496 (safeDivisor b))) (broadcastInDim S496 ![] bcast_S_S496 (safeDivisor b)))
    (Host.remsi a (broadcastInDim S496 ![] bcast_S_S496 (safeDivisor b)))

/-- A field number as a gather index: a negative one would be wrapped by 32 (none is), as a column. -/
def asIndex (a : I496 (F := F)) : (⟨S496x1, .i32⟩ : BufTy).Contents (Elt F) :=
  broadcastInDim S496x1 ![0] bcast_S496_S496x1_0
    (select (cmpi .slt a (broadcastInDim S496 ![] bcast_S_S496 (kI (F := F) 0#32)))
      (addi a (broadcastInDim S496 ![] bcast_S_S496 (kI (F := F) 32#32))) a)

/-- The left field of each pair, as gather indices. -/
def leftIdx : (⟨S496x1, .i32⟩ : BufTy).Contents (Elt F) :=
  asIndex (floorRem (floorDiv (flat (F := F)) (kI (F := F) 32#32)) (kI (F := F) 32#32))

/-- The right field of each pair, as gather indices. -/
def rightIdx : (⟨S496x1, .i32⟩ : BufTy).Contents (Elt F) :=
  asIndex (floorRem (floorDiv (flat (F := F)) (kI (F := F) 1#32)) (kI (F := F) 32#32))

/-- The reference's result: the left field's row of x * W, times the right field's row of x. -/
def out (x : (⟨S8192x32x64, .f32⟩ : BufTy).Contents (Elt F)) (W : (⟨S64x64, .f32⟩ : BufTy).Contents (Elt F)) :
    (⟨S8192x496x64, .f32⟩ : BufTy).Contents (Elt F) :=
  mulf
    (Host.gather gather_S8192x32x64_S496x1_S8192x496x64_02_1_n_n_1_1_8192164
      (Host.dotGeneral dot_S8192x32x64_S64x64_S8192x32x64_2_0_01_1_n_n none x W) (leftIdx (F := F)))
    (Host.gather gather_S8192x32x64_S496x1_S8192x496x64_02_1_n_n_1_1_8192164 x (rightIdx (F := F)))

end Cert.ReferenceIdeal.Hand

end
-- ==== Proof.RefRun.lean ====
/-
  The reference's run, read back.

  Every weakly fair execution of the reference's @main ends with each buffer at the fold of the 137
  operations' results over the launch contents. Read at the result buffer, the fold is the closed term
  of the two argument arrays: each operation's result at its own buffer is its function of its operands'
  contents, and at any other buffer what was there, so the fold unwinds, operand by operand, into the
  operations' functions composed in program order — the triangle mask, its running count, the clip, the
  histogram and its running sum, the two floor quotients and floor remainders, the two gathers and the
  product. No operation writes an argument buffer, so each argument buffer ends as it was launched.
-/
import proofs.«103675_j64793876628087_1_alg».proof.Proof.RefRunOps
import proofs.«103675_j64793876628087_1_alg».proof.Proof.RefTerm

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

-- one rewrite per operation and later buffer; the composed term is then the closed term's definitions
-- unfolded, the window reduction, the scatter and the gather kept folded on both sides
attribute [local irreducible] Host.reduceWindow Host.scatter Host.gather in
set_option maxRecDepth 65536 in
set_option maxHeartbeats 4000000 in
/-- The fold at the result buffer is the closed term of the two argument arrays. -/
theorem out_eq (V : Valuation τ sig (Elt F)) :
    after ops V (main_v35 : DevRef τ sig)
      = Cert.ReferenceIdeal.Hand.out (V (main_arg0 : DevRef τ sig)) (V (main_arg1 : DevRef τ sig)) := by
  after_results_simp
  rfl

set_option maxRecDepth 65536 in
set_option maxHeartbeats 4000000 in
/-- No operation writes the first argument's buffer. -/
theorem arg0_eq (V : Valuation τ sig (Elt F)) :
    after ops V (main_arg0 : DevRef τ sig) = V (main_arg0 : DevRef τ sig) := by
  after_results_simp

set_option maxRecDepth 65536 in
set_option maxHeartbeats 4000000 in
/-- No operation writes the second argument's buffer. -/
theorem arg1_eq (V : Valuation τ sig (Elt F)) :
    after ops V (main_arg1 : DevRef τ sig) = V (main_arg1 : DevRef τ sig) := by
  after_results_simp

/-- On every device, for any float values, from any memory with zero counters: every weakly fair execution of
    @main terminates with the result buffer at the closed term of the two arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = Cert.ReferenceIdeal.Hand.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (out_eq _),
      (h c main_arg0).trans (arg0_eq _),
      (h c main_arg1).trans (arg1_eq _)⟩)
    (run_main m ρ)

end Cert.ReferenceIdeal.HandRun

end
-- ==== Proof.LibPrefixCount.lean ====
/-
  Two closed forms over 32-bit words that are the images of naturals.

  A one-axis `reduce_window` by addition whose window is as long as the axis, with stride one and all its padding in
  front, is the running sum: position `j` holds the sum of the operand's positions up to `j`.

  A scatter by addition of updates that are all one, into zeros, at the cells named by a column of indices, is a
  histogram: cell `v` holds the number of updates whose index is `v`; an index past the operand's end is dropped.
-/
import Idealize.ShloMosaic.PureOps.Contract
import Mathlib.Algebra.BigOperators.Fin
import Mathlib.Algebra.BigOperators.Intervals

open scoped BigOperators

namespace Cert.PrefixCount

open Idealize.ShloMosaic

/-- A left fold of 32-bit additions of words that are the images of naturals is the image of the sum. -/
theorem foldl_addi_ofNat {ι : Type} (g : ι → BitVec 32) (c : ι → ℕ) :
    ∀ (l : List ι) (a : ℕ), (∀ n ∈ l, g n = BitVec.ofNat 32 (c n)) →
      l.foldl (fun r n => IntOp.addi r (g n)) (BitVec.ofNat 32 a) = BitVec.ofNat 32 (a + (l.map c).sum)
  | [], a, _ => by simp
  | n :: l, a, h => by
      rw [List.foldl_cons, h n (List.mem_cons_self ..)]
      have e : IntOp.addi (BitVec.ofNat 32 a) (BitVec.ofNat 32 (c n)) = BitVec.ofNat 32 (a + c n) := by
        simp [IntOp.addi, BitVec.ofNat_add]
      rw [e, foldl_addi_ofNat g c l (a + c n) (fun k hk => h k (List.mem_cons_of_mem _ hk))]
      simp [Nat.add_assoc]

/-- The one coordinate of a rank-1 index read back from its row-major number. -/
theorem rowMajor_symm_val_one {d : Fin 1 → ℕ} (n : Fin (⟨1, d⟩ : Shape).numel) :
    (((⟨1, d⟩ : Shape).rowMajor.symm n) 0).val = n.val := by
  rw [← Shape.rowMajor_val_one, Equiv.apply_symm_apply]

/-- The sum over a window of `lo + 1` positions ending at `j`, the positions before `0` counting nothing. -/
theorem sum_window (c : ℕ → ℕ) (lo j : ℕ) (hj : j ≤ lo) :
    ∑ i ∈ Finset.range (lo + 1), (if lo ≤ j + i then c (j + i - lo) else 0) = ∑ i ∈ Finset.range (j + 1), c i := by
  obtain ⟨a, rfl⟩ : ∃ a, lo = a + j := ⟨lo - j, by omega⟩
  rw [show a + j + 1 = a + (j + 1) by omega, Finset.sum_range_add]
  rw [Finset.sum_eq_zero (fun i hi => by
    have := Finset.mem_range.1 hi
    rw [if_neg (by omega)]), zero_add]
  refine Finset.sum_congr rfl fun i _ => ?_
  rw [if_pos (by omega)]
  congr 1; omega

/-- A one-axis `reduce_window` by addition with window `lo + 1`, stride one and `lo` positions of low padding, from zero,
    over words that are the images of naturals: at position `j` the image of the sum over the positions up to `j`. -/
theorem reduceWindow_prefix {N lo : ℕ} (hlo : lo + 1 = N) {u : Shape}
    (x : (⟨1, ![N]⟩ : Shape).Idx → BitVec 32) (init : u.Idx → BitVec 32)
    (h : (⟨1, ![N]⟩ : Shape).ReduceWindows (![N] : Fin 1 → ℕ) ![1] ![lo] ![0] ⟨1, ![N]⟩) (hu : 0 < u.numel)
    (c : ℕ → ℕ) (hx : ∀ i, x i = BitVec.ofNat 32 (c (i 0).val)) (hinit : init (Shape.Idx.first hu) = 0#32)
    (j : (⟨1, ![N]⟩ : Shape).Idx) :
    Host.reduceWindow IntOp.addi ![N] ![1] ![lo] ![0] x init h hu j
      = BitVec.ofNat 32 (∑ i ∈ Finset.range ((j 0).val + 1), c i) := by
  unfold Host.reduceWindow
  simp only []
  rw [hinit]
  refine (foldl_addi_ofNat _ (fun n => if lo ≤ (j 0).val + n.val then c ((j 0).val + n.val - lo) else 0) _ 0 ?_).trans ?_
  · intro n _
    have hn : (((⟨1, ![N]⟩ : Shape).rowMajor.symm n) 0).val = n.val := rowMajor_symm_val_one n
    have hnlt : n.val < N := lt_of_lt_of_eq n.isLt (Shape.numel_rank1 ![N])
    have hjlt : (j 0).val < N := (j 0).isLt
    split
    next hin =>
      have h0 := hin 0
      rw [hx]
      simp only [Fin.isValue, Matrix.cons_val_zero, Matrix.cons_val_fin_one, hn, mul_one] at h0 ⊢
      have h0' : lo ≤ (j 0).val + n.val ∧ (j 0).val + n.val - lo < N := h0
      show BitVec.ofNat 32 (c ((j 0).val + n.val - lo)) = _
      rw [if_pos h0'.1]
    next hin =>
      simp only [Fin.forall_fin_one, Fin.isValue, Matrix.cons_val_zero, Matrix.cons_val_fin_one, hn, mul_one] at hin
      have hin' : ¬(lo ≤ (j 0).val + n.val ∧ (j 0).val + n.val - lo < N) := hin
      rw [if_neg (by omega)]
  · have hjlt : (j 0).val < N := (j 0).isLt
    rw [Nat.zero_add, ← Fin.sum_univ_def,
      Fin.sum_univ_eq_sum_range (fun i => if lo ≤ (j 0).val + i then c ((j 0).val + i - lo) else 0),
      Shape.numel_rank1]
    show BitVec.ofNat 32 (∑ i ∈ Finset.range N, _) = _
    subst hlo
    rw [sum_window c lo (j 0).val (by omega)]

/-- A left fold of steps each of which, read at `v`, adds one when it hits `v` and leaves the value alone otherwise:
    read at `v`, the start value plus the number of hits. -/
theorem foldl_hit_count {ι σ : Type} (step : (σ → BitVec 32) → ι → (σ → BitVec 32)) (v : σ) (hit : ι → Prop)
    [DecidablePred hit] (hstep : ∀ r n, step r n v = if hit n then IntOp.addi (r v) 1#32 else r v) :
    ∀ (l : List ι) (r : σ → BitVec 32) (a : ℕ), r v = BitVec.ofNat 32 a →
      (l.foldl step r) v = BitVec.ofNat 32 (a + (l.map fun n => if hit n then 1 else 0).sum)
  | [], r, a, hr => by simpa using hr
  | n :: l, r, a, hr => by
      rw [List.foldl_cons, foldl_hit_count step v hit hstep l (step r n) (a + if hit n then 1 else 0) ?_]
      · simp [Nat.add_assoc]
      · rw [hstep, hr]
        split_ifs
        · simp [IntOp.addi, BitVec.ofNat_add]
        · simp

/-- A word that is the image of a natural below `2 ^ 31` reads back signed as that natural. -/
theorem toInt_ofNat_small (c : ℕ) (h : c < 2 ^ 31) : (BitVec.ofNat 32 c).toInt = (c : ℤ) := by
  rw [BitVec.toInt_eq_toNat_cond, BitVec.toNat_ofNat, Nat.mod_eq_of_lt (by omega), if_pos (by omega)]

/-- Every coordinate of a rank-1 index is its coordinate on axis zero. -/
theorem idx1_val {d : Fin 1 → ℕ} (j : (⟨1, d⟩ : Shape).Idx) (a : Fin 1) : (j a).val = (j 0).val := by
  obtain rfl : a = 0 := Subsingleton.elim _ _
  rfl

section Scatter
variable {K V : ℕ}

/-- For a scatter of `K` scalar updates into a one-axis operand of `V` cells at the cells a column of `K` indices names,
    update `j` lands on cell `v` exactly when its index (the image of a natural below `2 ^ 31`, read signed) is `v`:
    the window coordinate is zero, and an index outside `0 … V - 1` lands nowhere. -/
theorem resultIdx?_eq_some_iff (d : ScatterDims ⟨1, ![V]⟩ ⟨2, ![K, 1]⟩ ⟨1, ![K]⟩)
    (h1 : d.updateWindowDims = []) (h2 : d.insertedWindowDims = [0]) (h3 : d.scatterDimsToOperandDims = [0])
    (h4 : d.indexVectorDim = 1)
    (idx : IVec ⟨2, ![K, 1]⟩ 32) (cell : ℕ → ℕ) (hcell : ∀ i, idx i = BitVec.ofNat 32 (cell (i 0).val))
    (hlt : ∀ k < K, cell k < 2 ^ 31) (j : (⟨1, ![K]⟩ : Shape).Idx) (v : (⟨1, ![V]⟩ : Shape).Idx) :
    d.resultIdx? j idx = some v ↔ cell (j 0).val = (v 0).val := by
  obtain ⟨uw, iw, sd, iv, wf⟩ := d
  simp only at h1 h2 h3 h4
  subst h1 h2 h3 h4
  have hw : ∀ a, ScatterDims.window ⟨[], [0], [0], 1, wf⟩ j a = 0 := by
    intro a
    unfold ScatterDims.window
    rw [dif_neg]
    intro hmem
    have h2 := (List.mem_filter.1 hmem).2
    exact (of_decide_eq_true h2) (List.mem_singleton.2 (Subsingleton.elim _ _))
  have hsi : ∀ c, ((ScatterDims.siIdx ⟨[], [0], [0], 1, wf⟩ j c) 0).val = (j 0).val := by
    intro c
    unfold ScatterDims.siIdx
    simp only []
    rw [dif_neg (show ¬ ((0 : Fin 2).val = 1) from Nat.zero_ne_one)]
    unfold ScatterDims.siCoord
    simp only [Fin.coe_cast]
    exact idx1_val j _
  have hs : ∀ a, ScatterDims.start ⟨[], [0], [0], 1, wf⟩ j idx a = (cell (j 0).val : ℤ) := by
    intro a
    unfold ScatterDims.start
    rw [dif_pos (List.mem_singleton.2 (Subsingleton.elim _ _)), hcell, hsi, toInt_ofNat_small _ (hlt _ (j 0).isLt)]
  unfold ScatterDims.resultIdx?
  simp only [hw, hs]
  have hv : (v 0).val < V := (v 0).isLt
  split
  next h =>
    rw [Option.some.injEq]
    constructor
    · intro e
      have e0 := congrArg (fun f => (f 0).val) e
      simp only [Nat.cast_zero, add_zero, Int.toNat_natCast] at e0
      exact e0
    · intro e
      funext a
      obtain rfl : a = 0 := Subsingleton.elim _ _
      apply Fin.ext
      simp only [Nat.cast_zero, add_zero, Int.toNat_natCast]
      exact e
  next h =>
    constructor
    · intro e
      exact absurd e (by simp)
    · intro e
      refine absurd (fun a => ?_) h
      obtain rfl : a = 0 := Subsingleton.elim _ _
      show (0 : ℤ) ≤ (cell (j 0).val : ℤ) + ((0 : ℕ) : ℤ) ∧ (cell (j 0).val : ℤ) + ((0 : ℕ) : ℤ) < ((V : ℕ) : ℤ)
      omega

/-- A scatter by addition of updates all one, into zeros, of `K` scalar updates at the cells a column of `K` indices
    names (each the image of a natural below `2 ^ 31`; a cell past the operand's end drops its update): at cell `v`
    the number of updates whose cell is `v`. -/
theorem scatter_ones_count (d : ScatterDims ⟨1, ![V]⟩ ⟨2, ![K, 1]⟩ ⟨1, ![K]⟩)
    (h1 : d.updateWindowDims = []) (h2 : d.insertedWindowDims = [0]) (h3 : d.scatterDimsToOperandDims = [0])
    (h4 : d.indexVectorDim = 1)
    (x : (⟨1, ![V]⟩ : Shape).Idx → BitVec 32) (idx : IVec ⟨2, ![K, 1]⟩ 32) (upd : (⟨1, ![K]⟩ : Shape).Idx → BitVec 32)
    (cell : ℕ → ℕ) (hcell : ∀ i, idx i = BitVec.ofNat 32 (cell (i 0).val)) (hlt : ∀ k < K, cell k < 2 ^ 31)
    (hx : ∀ i, x i = 0#32) (hupd : ∀ i, upd i = 1#32) (v : (⟨1, ![V]⟩ : Shape).Idx) :
    Host.scatter d IntOp.addi x idx upd v
      = BitVec.ofNat 32 (∑ k ∈ Finset.range K, if cell k = (v 0).val then 1 else 0) := by
  unfold Host.scatter
  refine (foldl_hit_count _ v (fun n => cell n.val = (v 0).val) ?_ _ x 0 (hx v)).trans ?_
  · intro r n
    have hiff := resultIdx?_eq_some_iff d h1 h2 h3 h4 idx cell hcell hlt ((⟨1, ![K]⟩ : Shape).rowMajor.symm n) v
    rw [rowMajor_symm_val_one] at hiff
    generalize d.resultIdx? ((⟨1, ![K]⟩ : Shape).rowMajor.symm n) idx = res at hiff ⊢
    cases res with
    | none =>
      show r v = _
      rw [if_neg]
      intro e
      cases hiff.2 e
    | some i =>
      show (if v = i then IntOp.addi (r i) (upd _) else r v) = _
      by_cases hvi : v = i
      · subst hvi
        rw [if_pos rfl, if_pos (hiff.1 rfl), hupd]
      · rw [if_neg hvi, if_neg]
        intro e
        exact hvi (Option.some.inj (hiff.2 e)).symm
  · rw [Nat.zero_add, ← Fin.sum_univ_def,
      Fin.sum_univ_eq_sum_range (fun k => if cell k = (v 0).val then 1 else 0), Shape.numel_rank1]
    rfl

end Scatter

end Cert.PrefixCount
-- ==== Proof.PairTablePosFacts.lean ====
/-
  The pairs' positions: pair number `p` sits inside the 32 x 32 array, in its strict upper triangle, with exactly `p`
  positions of the triangle before it. The list of positions is the triangle's positions below 1024 in ascending
  order, without repeats; so it splits at its entry `n` into the triangle's positions below `n`, then `n`, then the rest,
  and `n`'s place in the list is the number of the triangle's positions below `n`.
-/
import proofs.«103675_j64793876628087_1_alg».proof.Proof.PairIndex
import Mathlib.Data.List.GetD
import Mathlib.Data.List.Nodup
import Mathlib.Data.List.Range

namespace Cert.Pairs

/-- Position `k` lies in the strict upper triangle: its row number is below its column number. -/
def upper (k : ℕ) : Prop := k / 32 < k % 32

instance : DecidablePred upper := fun k => inferInstanceAs (Decidable (k / 32 < k % 32))

theorem positions_eq : positions = (List.range 1024).filter fun k => decide (upper k) := rfl

/-- There are 496 pairs (counted on the list of naturals itself). -/
theorem length_positions : positions.length = 496 := by decide +kernel

theorem mem_positions {x : ℕ} : x ∈ positions ↔ x < 1024 ∧ upper x := by
  rw [positions_eq, List.mem_filter, List.mem_range, decide_eq_true_eq]

theorem nodup_positions : positions.Nodup := by
  rw [positions_eq]
  exact List.nodup_range.filter _

/-- Pair number `p`'s position is inside the array, lies in the strict upper triangle, and has exactly `p` positions of
    the triangle before it. -/
theorem pos_facts : ∀ p < 496, pos p < 1024 ∧ upper (pos p) ∧
    ((List.range (pos p)).filter fun k => decide (upper k)).length = p := by
  intro p hp
  have hp' : p < positions.length := by rw [length_positions]; exact hp
  have hpos : pos p = positions[p] := List.getD_eq_getElem _ _ hp'
  have hmem := mem_positions.1 (List.getElem_mem hp')
  rw [hpos]
  refine ⟨hmem.1, hmem.2, ?_⟩
  generalize hn : positions[p] = n at hmem ⊢
  obtain ⟨k, hk⟩ : ∃ k, 1024 = n + (k + 1) := ⟨1023 - n, by omega⟩
  have hsplit : positions = ((List.range n).filter fun k => decide (upper k)) ++
      n :: (((List.range k).map Nat.succ).map (n + ·)).filter fun k => decide (upper k) := by
    rw [positions_eq, hk, List.range_add, List.filter_append, List.range_succ_eq_map, List.map_cons,
      List.filter_cons_of_pos (by simpa using hmem.2)]
    rfl
  have h2 := List.getElem_of_append hsplit rfl
  exact nodup_positions.getElem_inj_iff.1 (h2.trans hn.symm)

end Cert.Pairs
-- ==== Proof.PairTableCount.lean ====
/-
  Counting in the strict upper triangle of the 32 x 32 array, flattened. `cnt n` is the number of the triangle's
  positions below `n`; the running count at position `k` is `cnt (k + 1)`. Since pair number `p`'s position has exactly
  `p` positions of the triangle before it and is one itself, the running count is at most `p` exactly at the positions
  before it; so the number of positions whose running count is at most `p` — the histogram of the running counts, summed
  up to cell `p` — is that position.
-/
import proofs.«103675_j64793876628087_1_alg».proof.Proof.PairTablePosFacts
import Mathlib.Algebra.BigOperators.Intervals
import Mathlib.Algebra.BigOperators.Ring.Finset

open scoped BigOperators

namespace Cert.Pairs

/-- The number of positions of the triangle below `n`. -/
def cnt (n : ℕ) : ℕ := ((Finset.range n).filter upper).card

theorem cnt_mono {a b : ℕ} (h : a ≤ b) : cnt a ≤ cnt b :=
  Finset.card_le_card (Finset.filter_subset_filter _ (Finset.range_mono h))

theorem cnt_eq_length (n : ℕ) : cnt n = ((List.range n).filter fun k => decide (upper k)).length := rfl

/-- The running count of ones of the triangle's indicator is `cnt`. -/
theorem sum_upper_eq_cnt (n : ℕ) : ∑ i ∈ Finset.range n, (if i / 32 < i % 32 then 1 else 0) = cnt n := by
  unfold cnt
  rw [Finset.card_filter]
  rfl

theorem cnt_le (n : ℕ) : cnt n ≤ n := by
  unfold cnt
  exact (Finset.card_filter_le _ _).trans (Finset.card_range n).le

theorem cnt_pos {p : ℕ} (hp : p < 496) : cnt (pos p) = p := by
  rw [cnt_eq_length]; exact (pos_facts p hp).2.2

theorem cnt_pos_succ {p : ℕ} (hp : p < 496) : cnt (pos p + 1) = p + 1 := by
  have h := cnt_pos hp
  unfold cnt at h ⊢
  rw [Finset.range_add_one, Finset.filter_insert, if_pos (pos_facts p hp).2.1,
    Finset.card_insert_of_notMem (by simp), h]

/-- The running count at position `k` is at most `p` exactly before pair number `p`'s position. -/
theorem cnt_succ_le_iff {p : ℕ} (hp : p < 496) (k : ℕ) : cnt (k + 1) ≤ p ↔ k < pos p := by
  constructor
  · intro h
    by_contra hk
    have := cnt_mono (show pos p + 1 ≤ k + 1 by omega)
    rw [cnt_pos_succ hp] at this
    omega
  · intro h
    have := cnt_mono (show k + 1 ≤ pos p by omega)
    rw [cnt_pos hp] at this
    exact this

/-- The histogram of the running counts, summed up to cell `p`, is pair number `p`'s position. -/
theorem sum_hist_eq_pos {p : ℕ} (hp : p < 496) :
    ∑ v ∈ Finset.range (p + 1), ∑ k ∈ Finset.range 1024, (if cnt (k + 1) = v then 1 else 0) = pos p := by
  rw [Finset.sum_comm]
  have h1 : ∀ k ∈ Finset.range 1024,
      ∑ v ∈ Finset.range (p + 1), (if cnt (k + 1) = v then 1 else 0) = if k < pos p then 1 else 0 := by
    intro k _
    rw [Finset.sum_ite_eq]
    simp only [Finset.mem_range, Nat.lt_succ_iff, cnt_succ_le_iff hp]
  rw [Finset.sum_congr rfl h1, Finset.sum_boole]
  have h2 : (Finset.range 1024).filter (· < pos p) = Finset.range (pos p) := by
    ext k
    simp only [Finset.mem_filter, Finset.mem_range]
    have := (pos_facts p hp).1
    omega
  rw [h2, Finset.card_range]
  simp

end Cert.Pairs
-- ==== Proof.PairTableMask.lean ====
/-
  The strict upper triangle's mask at the ideal instance: at row `r`, column `c` the reference selects 0.0 where the
  row number is at least the column number and 1.0 elsewhere, and compares with 0.0; so the mask is one exactly
  where `r < c`, and flattened, at position `k`, exactly where `k / 32 < k % 32`.
-/
import proofs.«103675_j64793876628087_1_alg».proof.Proof.RefTerm
import Idealize.ShloMosaic.PureOps.Ideal

noncomputable section

namespace Cert.ReferenceIdeal.Hand

open Cert.ReferenceIdeal Idealize.ShloMosaic
open Cert.ReferenceIdeal.Facts₀ Cert.ReferenceIdeal.Facts

variable [Cert.ReferenceIdeal.Facts]

/-- The integer comparison of a row number (plus zero) with a column number, both below 32. -/
theorem sge_words : ∀ r c : Fin 32,
    IntOp.cmpi .sge (IntOp.addi (BitVec.ofNat 32 r.val) 0#32) (BitVec.ofNat 32 c.val) = if c.val ≤ r.val then 1#1 else 0#1 := by
  decide +kernel

/-- The pattern of all zeros denotes zero. -/
theorem ofBits_zero : Ideal.ofBits .f32 0x00000000#32 = 0 := by simp [Ideal.ofBits, Ideal.ieee]

/-- The pattern `0x3F800000` denotes one. -/
theorem ofBits_one : Ideal.ofBits .f32 0x3F800000#32 = 1 := by
  simp [Ideal.ofBits, Ideal.ieee, -EReal.coe_mul]; norm_num

/-- The mask at row `r`, column `c`: one exactly where `r < c`. -/
theorem mask_apply (jj : S32x32.Idx) : mask (F := Ideal) jj = if (jj 0).val < (jj 1).val then 1#1 else 0#1 := by
  have hw := sge_words (jj 0) (jj 1)
  show Ideal.cmp .une (Scalar.select (IntOp.cmpi .sge (IntOp.addi (BitVec.ofNat 32 (jj 0).val) 0#32) (BitVec.ofNat 32 (jj 1).val))
    (Ideal.ofBits .f32 0x00000000#32) (Ideal.ofBits .f32 0x3F800000#32)) (Ideal.ofBits .f32 0x00000000#32) = _
  rw [hw, ofBits_zero, ofBits_one]
  by_cases hc : (jj 1).val ≤ (jj 0).val
  · rw [if_pos hc, if_neg (by omega)]
    simp [Scalar.select, Ideal.cmp]
  · rw [if_neg hc, if_pos (by omega)]
    simp [Scalar.select, Ideal.cmp]

/-- The flattened mask at position `k`: one exactly where `k / 32 < k % 32`. -/
theorem maskFlat_apply (i : S1024.Idx) :
    maskFlat (F := Ideal) i = BitVec.ofNat 32 (if (i 0).val / 32 < (i 0).val % 32 then 1 else 0) := by
  show (mask (F := Ideal) (Shape.reshapeEquiv shapeCasts_S32x32_S1024 i)).setWidth 32 = _
  have hrm := Shape.rowMajor_reshapeEquiv (s := S32x32) (s' := S1024) shapeCasts_S32x32_S1024 i
  rw [Shape.rowMajor_val_two, Shape.rowMajor_val_one] at hrm
  generalize Shape.reshapeEquiv shapeCasts_S32x32_S1024 i = jj at hrm ⊢
  have h1 : (jj 1).val < 32 := (jj 1).isLt
  have hrm' : (jj 0).val * 32 + (jj 1).val = (i 0).val := hrm
  have hd : (i 0).val / 32 = (jj 0).val := by omega
  have hm : (i 0).val % 32 = (jj 1).val := by omega
  rw [mask_apply, hd, hm]
  split_ifs <;> rfl

end Cert.ReferenceIdeal.Hand

end
-- ==== Proof.PairTableWords.lean ====
/-
  The reference's floor quotient, floor remainder and index wrap on single 32-bit words, and their values on the
  words that are images of the naturals below 1024 (divisors 32 and 1): every operand is non-negative, so the sign
  corrections never fire — the quotient by 32 is `v / 32`, by 1 is `v`, the remainder by 32 is `v % 32`, and a value
  below 32 is not wrapped. Checked value by value.
-/
import Idealize.ShloMosaic.PureOps.Vector

namespace Cert.ReferenceIdeal.Hand

open Idealize.ShloMosaic

/-- The sign of a word: 0, -1 or 1. -/
def sgn (x : BitVec 32) : BitVec 32 := if x = 0 then 0 else if x.msb then -1 else 1

/-- The floor quotient of two words as the reference spells it. -/
def fdiv (a b : BitVec 32) : BitVec 32 :=
  Scalar.select
    (IntOp.andi (IntOp.cmpi .ne (sgn a) (sgn b)) (IntOp.cmpi .ne (IntOp.remsi .host a b) 0#32))
    (IntOp.subi (IntOp.divsi .host a b) 1#32) (IntOp.divsi .host a b)

/-- The divisor the remainder uses: one in place of zero. -/
def sdiv1 (b : BitVec 32) : BitVec 32 := Scalar.select (IntOp.cmpi .eq b 0#32) 1#32 b

/-- The floor remainder of two words as the reference spells it. -/
def frem (a b : BitVec 32) : BitVec 32 :=
  Scalar.select
    (IntOp.andi
      (IntOp.cmpi .ne (IntOp.cmpi .slt (IntOp.remsi .host a (sdiv1 b)) 0#32) (IntOp.cmpi .slt (sdiv1 b) 0#32))
      (IntOp.cmpi .ne (IntOp.remsi .host a (sdiv1 b)) 0#32))
    (IntOp.addi (IntOp.remsi .host a (sdiv1 b)) (sdiv1 b))
    (IntOp.remsi .host a (sdiv1 b))

/-- A negative field number wrapped by 32. -/
def wrap (x : BitVec 32) : BitVec 32 := Scalar.select (IntOp.cmpi .slt x 0#32) (IntOp.addi x 32#32) x

/-- The left field's chain on a position below 1024: its quotient by 32. -/
theorem left_words : ∀ v : Fin 1024,
    wrap (frem (fdiv (BitVec.ofNat 32 v.val) 32#32) 32#32) = BitVec.ofNat 32 (v.val / 32) := by
  decide +kernel

/-- The right field's chain on a position below 1024: its remainder by 32. -/
theorem right_words : ∀ v : Fin 1024,
    wrap (frem (fdiv (BitVec.ofNat 32 v.val) 1#32) 32#32) = BitVec.ofNat 32 (v.val % 32) := by
  decide +kernel

end Cert.ReferenceIdeal.Hand
-- ==== Proof.PairTable.lean ====
/-
  The reference's pair-index tables at pair number `p`, at the ideal instance.

  The flattened mask is one exactly on the strict upper triangle's positions; its running count at position `k` is the
  number of the triangle's positions up to `k`; the histogram's cell `v` is the number of positions whose running count
  is `v`; the histogram's running sum at `p` is the number of positions whose running count is at most `p`, which is
  pair number `p`'s position. Its quotient and remainder by 32 are the pair's left and right fields.
-/
import proofs.«103675_j64793876628087_1_alg».proof.Proof.RefTerm
import proofs.«103675_j64793876628087_1_alg».proof.Proof.PairIndex
import proofs.«103675_j64793876628087_1_alg».proof.Proof.LibPrefixCount
import proofs.«103675_j64793876628087_1_alg».proof.Proof.PairTablePosFacts
import proofs.«103675_j64793876628087_1_alg».proof.Proof.PairTableCount
import proofs.«103675_j64793876628087_1_alg».proof.Proof.PairTableMask
import proofs.«103675_j64793876628087_1_alg».proof.Proof.PairTableWords
import Idealize.ShloMosaic.PureOps.Ideal

noncomputable section

namespace Cert.ReferenceIdeal.Hand

open Cert.ReferenceIdeal Idealize.ShloMosaic
open Cert.ReferenceIdeal.Facts₀ Cert.ReferenceIdeal.Facts

variable [Cert.ReferenceIdeal.Facts]

/-- The running count at position `k`: the number of the triangle's positions up to and including `k`. -/
theorem count_apply (i : S1024.Idx) :
    count (F := Ideal) i = BitVec.ofNat 32 (Cert.Pairs.cnt ((i 0).val + 1)) := by
  unfold count
  refine (Cert.PrefixCount.reduceWindow_prefix (N := 1024) (lo := 1023) rfl (maskFlat (F := Ideal)) _
    reduceWindows_S1024_S1024_w1024s1p1023_0 h_S_ (fun k => if k / 32 < k % 32 then 1 else 0) maskFlat_apply rfl i).trans ?_
  rw [Cert.Pairs.sum_upper_eq_cnt]

/-- A word that is the image of a natural below `2 ^ 31` is not below zero. -/
theorem slt_zero_ofNat (n : ℕ) (h : n < 2 ^ 31) : (BitVec.ofNat 32 n).slt 0#32 = false := by
  simp [BitVec.slt, Cert.PrefixCount.toInt_ofNat_small n h]

/-- Clipping below at zero leaves the running count as it is. -/
theorem countClipped_apply (i : S1024.Idx) :
    countClipped (F := Ideal) i = BitVec.ofNat 32 (Cert.Pairs.cnt ((i 0).val + 1)) := by
  have hlt : Cert.Pairs.cnt ((i 0).val + 1) < 2 ^ 31 := by
    have := Cert.Pairs.cnt_le ((i 0).val + 1)
    have := (i 0).isLt
    show _ < 2147483648
    have h2 : (i 0).val < 1024 := (i 0).isLt
    omega
  show IntOp.maxsi 0#32 (count (F := Ideal) i) = _
  rw [count_apply, IntOp.maxsi, slt_zero_ofNat _ hlt]
  rfl

/-- Selecting on "below zero" at a word that is the image of a natural below `2 ^ 31` keeps the word. -/
theorem select_slt_ofNat (n : ℕ) (h : n < 2 ^ 31) (X : BitVec 32) :
    Scalar.select (IntOp.cmpi .slt (BitVec.ofNat 32 n) 0#32) X (BitVec.ofNat 32 n) = BitVec.ofNat 32 n := by
  simp [Scalar.select, IntOp.cmpi, slt_zero_ofNat n h]

/-- The wrap-then-column step read at a row: the select on one element of the clipped count. -/
theorem cellOf_apply (cc : (⟨S1024, .i32⟩ : BufTy).Contents (Elt Ideal)) (jj : S1024x1.Idx) :
    ∃ i : S1024.Idx,
      broadcastInDim S1024x1 ![0] bcast_S1024_S1024x1_0
        (select (cmpi .slt cc (broadcastInDim S1024 ![] bcast_S_S1024 (kI (F := Ideal) 0#32)))
          (addi cc (broadcastInDim S1024 ![] bcast_S_S1024 (kI (F := Ideal) 496#32))) cc) jj
        = Scalar.select (IntOp.cmpi .slt (cc i) 0#32) (IntOp.addi (cc i) 496#32) (cc i)
      ∧ (i 0).val = (jj 0).val :=
  ⟨_, rfl, rfl⟩

theorem cnt_succ_lt (k : ℕ) (hk : k < 1024) : Cert.Pairs.cnt (k + 1) < 2 ^ 31 := by
  have := Cert.Pairs.cnt_le (k + 1)
  show _ < 2147483648
  omega

/-- The histogram's cell numbers: the running count. -/
theorem cell_apply (jj : S1024x1.Idx) :
    cell (F := Ideal) jj = BitVec.ofNat 32 (Cert.Pairs.cnt ((jj 0).val + 1)) := by
  unfold cell
  obtain ⟨i, he, hi⟩ := cellOf_apply (countClipped (F := Ideal)) jj
  rw [he, countClipped_apply, hi, select_slt_ofNat _ (cnt_succ_lt _ (jj 0).isLt)]

/-- The histogram: cell `v` counts the positions whose running count is `v`. -/
theorem hist_apply (v : S496.Idx) :
    hist (F := Ideal) v
      = BitVec.ofNat 32 (∑ k ∈ Finset.range 1024, if Cert.Pairs.cnt (k + 1) = (v 0).val then 1 else 0) := by
  unfold hist
  exact Cert.PrefixCount.scatter_ones_count (K := 1024) (V := 496) scatter_S496_S1024x1_S1024_n_0_0_1 rfl rfl rfl rfl
    _ (cell (F := Ideal)) _ (fun k => Cert.Pairs.cnt (k + 1)) cell_apply cnt_succ_lt (fun _ => rfl) (fun _ => rfl) v

/-- The histogram's running sum at pair number `p`: the pair's flattened position. -/
theorem flat_apply (p : S496.Idx) : flat (F := Ideal) p = BitVec.ofNat 32 (Cert.Pairs.pos (p 0).val) := by
  unfold flat
  refine (Cert.PrefixCount.reduceWindow_prefix (N := 496) (lo := 495) rfl (hist (F := Ideal)) _
    reduceWindows_S496_S496_w496s1p495_0 h_S_
    (fun v => ∑ k ∈ Finset.range 1024, if Cert.Pairs.cnt (k + 1) = v then 1 else 0) hist_apply rfl p).trans ?_
  rw [Cert.Pairs.sum_hist_eq_pos (p 0).isLt]

/-- The floor quotient by a constant, read at an element. -/
theorem floorDiv_apply (a : I496 (F := Ideal)) (b : BitVec 32) (i : S496.Idx) :
    floorDiv a (kI b) i = fdiv (a i) b := rfl

/-- The floor remainder by a constant, read at an element. -/
theorem floorRem_apply (a : I496 (F := Ideal)) (b : BitVec 32) (i : S496.Idx) :
    floorRem a (kI b) i = frem (a i) b := rfl

/-- The index column read at a row: the wrap of one element. -/
theorem asIndex_apply (a : I496 (F := Ideal)) (q : S496x1.Idx) :
    ∃ i : S496.Idx, asIndex a q = wrap (a i) ∧ (i 0).val = (q 0).val :=
  ⟨_, rfl, rfl⟩

/-- The left field of pair number `p`. -/
theorem leftIdx_apply (q : S496x1.Idx) :
    leftIdx (F := Ideal) q = BitVec.ofNat 32 (Cert.Pairs.left (q 0).val) := by
  have hpos := (Cert.Pairs.pos_facts (q 0).val (q 0).isLt).1
  unfold leftIdx
  obtain ⟨i, he, hi⟩ := asIndex_apply (floorRem (floorDiv (flat (F := Ideal)) (kI (F := Ideal) 32#32)) (kI (F := Ideal) 32#32)) q
  rw [he, floorRem_apply, floorDiv_apply, flat_apply, hi]
  exact left_words ⟨Cert.Pairs.pos (q 0).val, hpos⟩

/-- The right field of pair number `p`. -/
theorem rightIdx_apply (q : S496x1.Idx) :
    rightIdx (F := Ideal) q = BitVec.ofNat 32 (Cert.Pairs.right (q 0).val) := by
  have hpos := (Cert.Pairs.pos_facts (q 0).val (q 0).isLt).1
  unfold rightIdx
  obtain ⟨i, he, hi⟩ := asIndex_apply (floorRem (floorDiv (flat (F := Ideal)) (kI (F := Ideal) 1#32)) (kI (F := Ideal) 32#32)) q
  rw [he, floorRem_apply, floorDiv_apply, flat_apply, hi]
  exact right_words ⟨Cert.Pairs.pos (q 0).val, hpos⟩

end Cert.ReferenceIdeal.Hand

end
-- ==== Proof.LibGatherRows.lean ====
/-
  A gather of whole rows along the middle axis, read at an index.

  The operand has shape [A, N, C]; the start indices are a column [P, 1] of integers; the result has shape
  [A, P, C]. The dimension numbers are those of `x[:, idx, :]`: offset axes 0 and 2 of the result, the operand's
  axis 1 collapsed and named by the start index map, the index vector on axis 1 of the start indices, slices of
  sizes [A, 1, C]. Read at `(a, p, c)` the gather is the operand at `(a, k, c)`, where `k` is start index `p`
  read as a signed integer and clamped into `[0, N - 1]`. Nothing is assumed of `A`, `P`, `C`, of the element type
  or of the indices' width; `N` is positive.
-/
import Idealize.ShloMosaic.Lib.ValueIdx
import Idealize.ShloMosaic.PureOps.ShapeOps

noncomputable section

namespace Cert.Lib.GatherRows

open Idealize.ShloMosaic Idealize.ShloMosaic.ValueIdx

variable {α : Type}

/-- Those dimension numbers; their conditions `wf` are decided on a program's literal shapes. -/
abbrev rowsDims (A N P C : Nat)
    (wf : GatherDims.WF ⟨3, ![A, N, C]⟩ ⟨2, ![P, 1]⟩ ⟨3, ![A, P, C]⟩ [0, 2] [1] [] [1] [] 1 ![A, 1, C]) :
    GatherDims ⟨3, ![A, N, C]⟩ ⟨2, ![P, 1]⟩ ⟨3, ![A, P, C]⟩ where
  offsetDims := [0, 2]
  collapsedSliceDims := [1]
  operandBatchingDims := []
  startIndicesBatchingDims := []
  startIndexMap := [1]
  indexVectorDim := 1
  sliceSizes := ![A, 1, C]
  wf := wf

/-- THE GATHER READ AT `(a, p, c)`: the operand at row `a`, lane `c`, and on the middle axis the start index
    `idx[p, 0]`, read signed and clamped into `[0, N - 1]`. -/
theorem gather_rows_apply {A N P C w : Nat} (hN : 0 < N)
    (wf : GatherDims.WF ⟨3, ![A, N, C]⟩ ⟨2, ![P, 1]⟩ ⟨3, ![A, P, C]⟩ [0, 2] [1] [] [1] [] 1 ![A, 1, C])
    (x : (⟨3, ![A, N, C]⟩ : Shape).Idx → α) (idx : IVec ⟨2, ![P, 1]⟩ w) (a : Fin A) (p : Fin P) (c : Fin C) :
    Host.gather (rowsDims A N P C wf) x idx (ix3 a p c)
      = x (ix3 a (⟨min (idx (ix2 p (0 : Fin 1))).toInt.toNat (N - 1), by omega⟩ : Fin N) c) := by
  unfold Host.gather
  congr 1
  funext ax
  refine Fin.ext ?_
  show (rowsDims A N P C wf).start (ix3 a p c) idx ax + (rowsDims A N P C wf).batchCoord (ix3 a p c) ax
      + (rowsDims A N P C wf).offCoord (ix3 a p c) ax = _
  rw [GatherDims.batchCoord_eq_zero _ _ _ List.not_mem_nil, Nat.add_zero]
  match ax with
  | ⟨0, _⟩ =>
    have hs : (rowsDims A N P C wf).start (ix3 a p c) idx (0 : Fin 3) = 0 := by
      unfold GatherDims.start
      rw [dif_neg (show ¬((0 : Fin 3) ∈ (rowsDims A N P C wf).startIndexMap) from by show (0 : Fin 3) ∉ [(1 : Fin 3)]; decide)]
    have ho : (rowsDims A N P C wf).offCoord (ix3 a p c) (0 : Fin 3) = a.val := by
      unfold GatherDims.offCoord
      rw [dif_pos (show (0 : Fin 3) ∈ (rowsDims A N P C wf).sKept from
        (GatherDims.mem_sKept _ _).2 ⟨by show (0 : Fin 3) ∉ [(1 : Fin 3)]; decide, List.not_mem_nil⟩)]
      rfl
    show (rowsDims A N P C wf).start (ix3 a p c) idx (0 : Fin 3) + (rowsDims A N P C wf).offCoord (ix3 a p c) (0 : Fin 3) = a.val
    rw [hs, ho, Nat.zero_add]
  | ⟨1, _⟩ =>
    have ho : (rowsDims A N P C wf).offCoord (ix3 a p c) (1 : Fin 3) = 0 :=
      GatherDims.offCoord_eq_zero _ _ _ (fun h => ((GatherDims.mem_sKept _ _).1 h).1 (List.mem_singleton.mpr rfl))
    have hs : (rowsDims A N P C wf).start (ix3 a p c) idx (1 : Fin 3)
        = min (idx (ix2 p (0 : Fin 1))).toInt.toNat (N - 1) := by
      unfold GatherDims.start
      rw [dif_pos (show (1 : Fin 3) ∈ (rowsDims A N P C wf).startIndexMap from List.mem_singleton.mpr rfl)]
      have hsi : (rowsDims A N P C wf).siIdx (ix3 a p c) ⟨List.idxOf (1 : Fin 3) (rowsDims A N P C wf).startIndexMap,
          List.idxOf_lt_length_iff.2 (List.mem_singleton.mpr rfl)⟩ = ix2 p (0 : Fin 1) := by
        funext b; refine Fin.ext ?_
        match b with
        | ⟨0, _⟩ => rfl
        | ⟨1, _⟩ => rfl
      rw [hsi]
      rfl
    show (rowsDims A N P C wf).start (ix3 a p c) idx (1 : Fin 3) + (rowsDims A N P C wf).offCoord (ix3 a p c) (1 : Fin 3) = _
    rw [hs, ho, Nat.add_zero]
  | ⟨2, _⟩ =>
    have hs : (rowsDims A N P C wf).start (ix3 a p c) idx (2 : Fin 3) = 0 := by
      unfold GatherDims.start
      rw [dif_neg (show ¬((2 : Fin 3) ∈ (rowsDims A N P C wf).startIndexMap) from by show (2 : Fin 3) ∉ [(1 : Fin 3)]; decide)]
    have ho : (rowsDims A N P C wf).offCoord (ix3 a p c) (2 : Fin 3) = c.val := by
      unfold GatherDims.offCoord
      rw [dif_pos (show (2 : Fin 3) ∈ (rowsDims A N P C wf).sKept from
        (GatherDims.mem_sKept _ _).2 ⟨by show (2 : Fin 3) ∉ [(1 : Fin 3)]; decide, List.not_mem_nil⟩)]
      rfl
    show (rowsDims A N P C wf).start (ix3 a p c) idx (2 : Fin 3) + (rowsDims A N P C wf).offCoord (ix3 a p c) (2 : Fin 3) = c.val
    rw [hs, ho, Nat.zero_add]

end Cert.Lib.GatherRows

end
-- ==== Proof.LibRowsDot.lean ====
/-
  A stack of rows times a matrix, read at an index, at the ideal values.

  The left operand has shape [A, N, K], the right one [K, C]; the last axis of the left operand is contracted
  with the first axis of the right one, no batch axis (`einsum "ank,kc->anc"`). At the ideal instance the host's
  `dot_general` with these dimension numbers is, at the result index `(a, n, c)`, the finite sum over `k : Fin K`
  of `lhs (a, n, k) * rhs (k, c)` on the extended reals. Nothing is assumed of `A`, `N`, `K`, `C` or of the formats.
-/
import Idealize.ShloMosaic.Lib.ValueIdx
import Idealize.ShloMosaic.PureOps.Ideal.Laws

noncomputable section

open scoped BigOperators

namespace Cert.Lib.RowsDot

open Idealize.ShloMosaic Idealize.ShloMosaic.ValueIdx

/-- Those dimension numbers; their conditions `wf` are decided on a program's literal shapes. -/
abbrev rowsDot (A N K C : Nat)
    (wf : DotDims.WF ⟨3, ![A, N, K]⟩ ⟨2, ![K, C]⟩ ⟨3, ![A, N, C]⟩ [2] [0] [0, 1] [1] [] []) :
    DotDims ⟨3, ![A, N, K]⟩ ⟨2, ![K, C]⟩ ⟨3, ![A, N, C]⟩ where
  lhsContracting := [2]
  rhsContracting := [0]
  lhsNonContracting := [0, 1]
  rhsNonContracting := [1]
  lhsBatch := []
  rhsBatch := []
  wf := wf

variable (A N K C : Nat) (wf : DotDims.WF ⟨3, ![A, N, K]⟩ ⟨2, ![K, C]⟩ ⟨3, ![A, N, C]⟩ [2] [0] [0, 1] [1] [] [])

/-- The one-axis contraction shape, identified with `Fin K`. -/
abbrev contrFin : (rowsDot A N K C wf).contr.Idx ≃ Fin K := contrEquiv1 (rowsDot A N K C wf) K rfl rfl

/-- The left operand's index at result index `(a, n, c)` and contraction coordinate `k` is `(a, n, k)`. -/
theorem lhsIdx_rows (a : Fin A) (n : Fin N) (c : Fin C) (k : Fin K) :
    (rowsDot A N K C wf).lhsIdx (ix3 a n c) ((contrFin A N K C wf).symm k) = ix3 a n k := by
  funext ax
  apply Fin.ext
  match ax with
  | ⟨0, _⟩ =>
    show ((rowsDot A N K C wf).lhsIdx (ix3 a n c) ((contrFin A N K C wf).symm k) (0 : Fin 3)).val = a.val
    unfold DotDims.lhsIdx
    rw [dif_neg (show ¬(0 : Fin 3) ∈ (rowsDot A N K C wf).lhsBatch from List.not_mem_nil),
      dif_pos (show (0 : Fin 3) ∈ (rowsDot A N K C wf).lhsNonContracting from by show (0 : Fin 3) ∈ [(0 : Fin 3), 1]; decide)]
    rfl
  | ⟨1, _⟩ =>
    show ((rowsDot A N K C wf).lhsIdx (ix3 a n c) ((contrFin A N K C wf).symm k) (1 : Fin 3)).val = n.val
    unfold DotDims.lhsIdx
    rw [dif_neg (show ¬(1 : Fin 3) ∈ (rowsDot A N K C wf).lhsBatch from List.not_mem_nil),
      dif_pos (show (1 : Fin 3) ∈ (rowsDot A N K C wf).lhsNonContracting from by show (1 : Fin 3) ∈ [(0 : Fin 3), 1]; decide)]
    rfl
  | ⟨2, _⟩ =>
    show ((rowsDot A N K C wf).lhsIdx (ix3 a n c) ((contrFin A N K C wf).symm k) (2 : Fin 3)).val = k.val
    exact ((rowsDot A N K C wf).lhsIdx_val_of_single rfl _ _).trans
      (contrEquiv1_symm_val (rowsDot A N K C wf) K rfl rfl k)

/-- The right operand's index at result index `(a, n, c)` and contraction coordinate `k` is `(k, c)`. -/
theorem rhsIdx_rows (a : Fin A) (n : Fin N) (c : Fin C) (k : Fin K) :
    (rowsDot A N K C wf).rhsIdx (ix3 a n c) ((contrFin A N K C wf).symm k) = ix2 k c := by
  funext ax
  apply Fin.ext
  match ax with
  | ⟨0, _⟩ =>
    show ((rowsDot A N K C wf).rhsIdx (ix3 a n c) ((contrFin A N K C wf).symm k) (0 : Fin 2)).val = k.val
    exact ((rowsDot A N K C wf).rhsIdx_val_of_single rfl _ _).trans
      (contrEquiv1_symm_val (rowsDot A N K C wf) K rfl rfl k)
  | ⟨1, _⟩ =>
    show ((rowsDot A N K C wf).rhsIdx (ix3 a n c) ((contrFin A N K C wf).symm k) (1 : Fin 2)).val = c.val
    unfold DotDims.rhsIdx
    rw [dif_neg (show ¬(1 : Fin 2) ∈ (rowsDot A N K C wf).rhsBatch from List.not_mem_nil),
      dif_pos (show (1 : Fin 2) ∈ (rowsDot A N K C wf).rhsNonContracting from List.mem_singleton.mpr rfl)]
    rfl

/-- The host's `dot_general` with these dimension numbers, at the ideal values, read at `(a, n, c)`. -/
theorem dotGeneral_rows_apply {φ₁ φ₂ : FTy} (prec : Option ContractPrecision) (sched : HostSchedule)
    (lhs : FVec Ideal ⟨3, ![A, N, K]⟩ φ₁) (rhs : FVec Ideal ⟨2, ![K, C]⟩ φ₂) (a : Fin A) (n : Fin N) (c : Fin C) :
    FloatOps.dotGeneral (rowsDot A N K C wf) prec sched lhs rhs (ix3 a n c)
      = ∑ k : Fin K, lhs (ix3 a n k) * rhs (ix2 k c) := by
  refine (Ideal.dotGeneral_apply (rowsDot A N K C wf) prec sched lhs rhs (ix3 a n c)).trans ?_
  rw [← Equiv.sum_comp (contrFin A N K C wf).symm]
  exact Finset.sum_congr rfl fun k _ => by rw [lhsIdx_rows, rhsIdx_rows]

end Cert.Lib.RowsDot

end
-- ==== Proof.RefValue.lean ====
/-
  The reference's result is the specification, index by index.

  At `(b, p, d)` the reference multiplies two gathered rows: row `leftIdx p` of x * W and row `rightIdx p` of x.
  A gathered row's number is the index read as a signed integer and clamped into [0, 31]; the indices are the
  pair's two fields (PairTable), which are field numbers, so nothing is clamped. The product x * W read at
  `(b, f, d)` is the sum over e of x[b, f, e] * W[e, d]. So the result at `(b, p, d)` is
  (sum over e of x[b, left p, e] * W[e, d]) * x[b, right p, d]: the specification.
-/
import proofs.«103675_j64793876628087_1_alg».proof.Proof.RefTerm
import proofs.«103675_j64793876628087_1_alg».proof.Proof.Spec
import proofs.«103675_j64793876628087_1_alg».proof.Proof.LibGatherRows
import proofs.«103675_j64793876628087_1_alg».proof.Proof.LibRowsDot
import Idealize.ShloMosaic.Lib.ValueIdx
import Idealize.ShloMosaic.PureOps.Ideal.Laws

noncomputable section

open scoped BigOperators

namespace Cert.ReferenceIdeal.Hand

open Cert.ReferenceIdeal Idealize.ShloMosaic Idealize.ShloMosaic.ValueIdx
open Cert.ReferenceIdeal.Facts₀ Cert.ReferenceIdeal.Facts

variable [Cert.ReferenceIdeal.Facts]

/-- A field number written as a 32-bit integer reads back, signed, as itself. -/
theorem toInt_toNat_field : ∀ n : Fin 32, (BitVec.ofNat 32 n.val).toInt.toNat = n.val := by decide

/-- The reference's gather read at `(b, p, d)`: row `idx[p, 0]` (signed, clamped into [0, 31]) of the operand. -/
theorem gather_apply (X : S8192x32x64.Idx → EReal) (idx : IVec S496x1 32) (b : Fin 8192) (p : Fin 496) (d : Fin 64) :
    Host.gather gather_S8192x32x64_S496x1_S8192x496x64_02_1_n_n_1_1_8192164 X idx (ix3 b p d)
      = X (ix3 b (⟨min (idx (ix2 p (0 : Fin 1))).toInt.toNat 31, by omega⟩ : Fin 32) d) :=
  Cert.Lib.GatherRows.gather_rows_apply (A := 8192) (N := 32) (P := 496) (C := 64) (by decide)
    gather_S8192x32x64_S496x1_S8192x496x64_02_1_n_n_1_1_8192164_wf X idx b p d

/-- The reference's product x * W read at `(b, f, d)`. -/
theorem dot_apply (x : FVec Ideal S8192x32x64 .f32) (W : FVec Ideal S64x64 .f32) (b : Fin 8192) (f : Fin 32) (d : Fin 64) :
    Host.dotGeneral dot_S8192x32x64_S64x64_S8192x32x64_2_0_01_1_n_n none x W (ix3 b f d)
      = ∑ e : Fin 64, x (ix3 b f e) * W (ix2 e d) :=
  Cert.Lib.RowsDot.dotGeneral_rows_apply 8192 32 64 64 dot_S8192x32x64_S64x64_S8192x32x64_2_0_01_1_n_n_wf none .single x W b f d

/-- The reference's result is the specification, given the two index tables at each pair number. -/
theorem out_eq_spec
    (hL : ∀ q : S496x1.Idx, leftIdx (F := Ideal) q = BitVec.ofNat 32 (Cert.Pairs.left (q 0).val))
    (hR : ∀ q : S496x1.Idx, rightIdx (F := Ideal) q = BitVec.ofNat 32 (Cert.Pairs.right (q 0).val))
    (x : FVec Ideal S8192x32x64 .f32) (W : FVec Ideal S64x64 .f32) :
    out (F := Ideal) x W = Cert.Bilinear.pairProd 8192 x W := by
  funext j
  obtain ⟨b, p, d, rfl⟩ : ∃ (b : Fin 8192) (p : Fin 496) (d : Fin 64), j = ix3 b p d := ⟨j 0, j 1, j 2, eq_ix3 j⟩
  unfold out
  rw [mulf_apply, gather_apply, gather_apply, Cert.Bilinear.pairProd_apply, dot_apply]
  have hl : (⟨min (leftIdx (F := Ideal) (ix2 p (0 : Fin 1))).toInt.toNat 31, by omega⟩ : Fin 32) = Cert.Bilinear.leftF p := by
    apply Fin.ext
    show min (leftIdx (F := Ideal) (ix2 p (0 : Fin 1))).toInt.toNat 31 = Cert.Pairs.left p.val
    rw [hL]
    show min (BitVec.ofNat 32 (Cert.Pairs.left p.val)).toInt.toNat 31 = Cert.Pairs.left p.val
    have h : (BitVec.ofNat 32 (Cert.Pairs.left p.val)).toInt.toNat = Cert.Pairs.left p.val :=
      toInt_toNat_field ⟨Cert.Pairs.left p.val, Cert.Bilinear.left_lt p⟩
    rw [h]
    exact Nat.min_eq_left (Nat.le_of_lt_succ (Cert.Bilinear.left_lt p))
  have hr : (⟨min (rightIdx (F := Ideal) (ix2 p (0 : Fin 1))).toInt.toNat 31, by omega⟩ : Fin 32) = Cert.Bilinear.rightF p := by
    apply Fin.ext
    show min (rightIdx (F := Ideal) (ix2 p (0 : Fin 1))).toInt.toNat 31 = Cert.Pairs.right p.val
    rw [hR]
    show min (BitVec.ofNat 32 (Cert.Pairs.right p.val)).toInt.toNat 31 = Cert.Pairs.right p.val
    have h : (BitVec.ofNat 32 (Cert.Pairs.right p.val)).toInt.toNat = Cert.Pairs.right p.val :=
      toInt_toNat_field ⟨Cert.Pairs.right p.val, Cert.Bilinear.right_lt p.val⟩
    rw [h]
    exact Nat.min_eq_left (Nat.le_of_lt_succ (Cert.Bilinear.right_lt p.val))
  rw [hl, hr]

end Cert.ReferenceIdeal.Hand

end
-- ==== Proof.lean ====
/-
  The certificate: a bilinear interaction of 32 fields, computed pair by pair.

  For x of shape [8192, 32, 64] and W of shape [64, 64], both programs produce, for every row b, every pair
  i < j of fields (496 pairs, in row-major order) and every lane d,

      (sum over e of x[b, i, e] * W[e, d]) * x[b, j, d].

  The kernel takes 64 rows per grid point, projects all their fields by W in one product, and stores the 31
  groups of pairs (one per left field i) at their places in its output block (KernelPiece, KernelBlock,
  KernelFinal). The reference projects all rows at once and gathers the two fields of each pair through index
  tables it computes from the strict upper triangle of a 32 x 32 mask by a running count, a histogram and a
  second running sum (RefTerm, RefRun, PairTable, RefValue). On the extended reals the two results are the same
  function of the arguments (Spec): the sums have the same terms, and a change of float format is the identity.
  No finiteness of the inputs is needed. The kernel's idealization rewrote nothing, so the fourth claim is trivial.
-/
import proofs.«103675_j64793876628087_1_alg».proof.Defs
import proofs.«103675_j64793876628087_1_alg».proof.Proof.Gen.Kernel
import proofs.«103675_j64793876628087_1_alg».proof.Proof.Gen.Kernel.Skeleton
import proofs.«103675_j64793876628087_1_alg».proof.Proof.Gen.Kernel.Launch
import proofs.«103675_j64793876628087_1_alg».proof.Proof.Gen.Kernel.Points
import proofs.«103675_j64793876628087_1_alg».proof.Proof.Gen.Kernel.Frame
import proofs.«103675_j64793876628087_1_alg».proof.Proof.Gen.KernelIdeal
import proofs.«103675_j64793876628087_1_alg».proof.Proof.Gen.KernelIdeal.Skeleton
import proofs.«103675_j64793876628087_1_alg».proof.Proof.Gen.KernelIdeal.Launch
import proofs.«103675_j64793876628087_1_alg».proof.Proof.Gen.KernelIdeal.Points
import proofs.«103675_j64793876628087_1_alg».proof.Proof.Gen.KernelIdeal.Frame
import proofs.«103675_j64793876628087_1_alg».proof.Proof.Gen.KernelIdeal.Value
import proofs.«103675_j64793876628087_1_alg».proof.Proof.Gen.ReferenceIdeal
import proofs.«103675_j64793876628087_1_alg».proof.Proof.Gen.Pre_finite_inputs
import proofs.«103675_j64793876628087_1_alg».proof.Proof.KernelFinal
import proofs.«103675_j64793876628087_1_alg».proof.Proof.RefRun
import proofs.«103675_j64793876628087_1_alg».proof.Proof.PairTable
import proofs.«103675_j64793876628087_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- On the extended reals the kernel's result array and the reference's are one function of arguments that
    agree: the pairwise products of projected fields. -/
theorem algebraic : Cert.algebraic_KernelIdeal_ReferenceIdeal := by
  intro m ρ m' ρ' _ hagree
  refine ⟨fun c => Cert.Bilinear.pairProd 8192
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]
  exact Cert.ReferenceIdeal.Hand.out_eq_spec Cert.ReferenceIdeal.Hand.leftIdx_apply
    Cert.ReferenceIdeal.Hand.rightIdx_apply _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
